-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 56
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S1x64, .f32⟩
  | .hbm, ⟨55, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x64, .f32⟩
  | .local _ .vmem, ⟨10, _⟩ => ⟨S4000x128, .f32⟩
  | .local _ .vmem, ⟨11, _⟩ => ⟨S4000x128, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S128x64, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S100000x64.size a
  hwx0_8 : ∀ i : grid0.Coords, EltTy.bits .f32 = 32 ∨ (Rect.block (s := S100000x64) S4000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v34) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 71
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRan.lean ====
/-
  The idealized kernel's run, with its result buffer named.

  @main of the kernel is four segments: a stretch of host operations, the layer-1 region, a second stretch of host
  operations, the layer-2 region. Every weakly fair execution from a memory with zero counters terminates without a
  fault, and in the final state every unscoped buffer of a core holds the contents `W4` that the four segments
  leave, folded from the launch memory. Read at the result buffer this names the kernel's output array; read at an
  argument it gives the argument back unchanged.
-/
import proofs.«136426_j72911364817007_2_alg».proof.Proof.Gen.KernelIdeal.Frame

set_option maxRecDepth 16384

noncomputable section

namespace Cert.KernelIdeal.Ran

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result buffer at the
    contents the last segment leaves and every argument as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Ran

end
-- ==== Proof.KernelBody.lean ====
/-
  The two kernel bodies, read at one element.

  Layer 1's body computes, on a block of 4000 nodes, `h = max ((agg · d) W_l + x W_r + b, 0)` and `h W'`; layer 2's
  computes `h W_r + agg' · d + b`. At the exact instance a change of float format is the identity and the matrix
  unit's product into a zero accumulator is the plain sum of products over the contracted axis, so each stored
  element is an explicit expression in the elements of the loaded blocks: row `p` of the block, column `q` or `j`.
-/
import proofs.«136426_j72911364817007_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The matrix products -/

theorem mm_hidden_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem mm_hidden_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem mm_hidden_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem mm_hidden_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The matrix unit's product into a zero accumulator, at row `p` and column `q`: the sum over the 128 contracted
    positions of the products. -/
theorem mm_hidden {φ₁ φ₂ : FTy} (a : FVec Ideal S4000x128 φ₁) (b : FVec Ideal S128x128 φ₂) (p : Fin 4000) (q : Fin 128) :
    matmul dot_S4000x128_S128x128_S4000x128_1_0_0_1_n_n none a b (constant S4000x128 .f32 0x00000000#32) (ix2 p q) = ∑ k : Fin 128, a (ix2 p k) * b (ix2 k q) := by
  show FloatOps.matmul dot_S4000x128_S128x128_S4000x128_1_0_0_1_n_n none a b (constant S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact mm_hidden_l0 _ _
    | ⟨1, _⟩ => exact (mm_hidden_l1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (mm_hidden_r0 _ _).trans hk
    | ⟨1, _⟩ => exact mm_hidden_r1 _ _)
  rw [el, er]

theorem mm_out_l0 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl
theorem mm_out_l1 (i : S4000x64.Idx) (q : dot_S4000x128_S128x64_S4000x64_1_0_0_1_n_n.contr.Idx) : (dot_S4000x128_S128x64_S4000x64_1_0_0_1_n_n.lhsIdx i q 1).val = (q ⟨0, by decide⟩).val :=
  dot_S4000x128_S128x64_S4000x64_1_0_0_1_n_n.lhsIdx_val_of_single rfl i q
theorem mm_out_r0 (i : S4000x64.Idx) (q : dot_S4000x128_S128x64_S4000x64_1_0_0_1_n_n.contr.Idx) : (dot_S4000x128_S128x64_S4000x64_1_0_0_1_n_n.rhsIdx i q 0).val = (q ⟨0, by decide⟩).val :=
  dot_S4000x128_S128x64_S4000x64_1_0_0_1_n_n.rhsIdx_val_of_single rfl i q
theorem mm_out_r1 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- The matrix unit's product into a zero accumulator, at row `p` and column `q`: the sum over the 128 contracted
    positions of the products. -/
theorem mm_out {φ₁ φ₂ : FTy} (a : FVec Ideal S4000x128 φ₁) (b : FVec Ideal S128x64 φ₂) (p : Fin 4000) (q : Fin 64) :
    matmul dot_S4000x128_S128x64_S4000x64_1_0_0_1_n_n none a b (constant S4000x64 .f32 0x00000000#32) (ix2 p q) = ∑ k : Fin 128, a (ix2 p k) * b (ix2 k q) := by
  show FloatOps.matmul dot_S4000x128_S128x64_S4000x64_1_0_0_1_n_n none a b (constant S4000x64 .f32 0x00000000#32) (ix2 p q) = _
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact mm_out_l0 _ _
    | ⟨1, _⟩ => exact (mm_out_l1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (mm_out_r0 _ _).trans hk
    | ⟨1, _⟩ => exact mm_out_r1 _ _)
  rw [el, er]

/-! ## The broadcasts -/

/-- A column `[4000, 1]` broadcast along 128 lanes reads its row's one element. -/
theorem bcast_col128 {α : Type} (v : S4000x1.Idx → α) (p : Fin 4000) (q : Fin 128) :
    broadcastTo S4000x128 v broadcasts_S4000x1_S4000x128 (ix2 p q) = v (ix2 p (0 : Fin 1)) :=
  broadcastTo_apply v _ (ix2 p q) (ix2 p (0 : Fin 1)) fun a => by
    match a with
    | ⟨0, _⟩ => rfl
    | ⟨1, _⟩ => rfl

/-- The same along 64 lanes. -/
theorem bcast_col64 {α : Type} (v : S4000x1.Idx → α) (p : Fin 4000) (q : Fin 64) :
    broadcastTo S4000x64 v broadcasts_S4000x1_S4000x64 (ix2 p q) = v (ix2 p (0 : Fin 1)) :=
  broadcastTo_apply v _ (ix2 p q) (ix2 p (0 : Fin 1)) fun a => by
    match a with
    | ⟨0, _⟩ => rfl
    | ⟨1, _⟩ => rfl

/-- A row `[1, 128]` broadcast down 4000 sublanes reads its column's one element. -/
theorem bcast_row128 {α : Type} (v : S1x128.Idx → α) (p : Fin 4000) (q : Fin 128) :
    broadcastTo S4000x128 v broadcasts_S1x128_S4000x128 (ix2 p q) = v (ix2 (0 : Fin 1) q) :=
  broadcastTo_apply v _ (ix2 p q) (ix2 (0 : Fin 1) q) fun a => by
    match a with
    | ⟨0, _⟩ => rfl
    | ⟨1, _⟩ => rfl

/-- The same for a row `[1, 64]`. -/
theorem bcast_row64 {α : Type} (v : S1x64.Idx → α) (p : Fin 4000) (q : Fin 64) :
    broadcastTo S4000x64 v broadcasts_S1x64_S4000x64 (ix2 p q) = v (ix2 (0 : Fin 1) q) :=
  broadcastTo_apply v _ (ix2 p q) (ix2 (0 : Fin 1) q) fun a => by
    match a with
    | ⟨0, _⟩ => rfl
    | ⟨1, _⟩ => rfl

/-! ## The stored values -/

/-- LAYER 1's hidden block at `(p, q)`: `max ((Σ_k (agg[p,k] · d[p]) W_l[k,q] + Σ_k x[p,k] W_r[k,q]) + b[q], 0)`. -/
theorem hidden_apply (agg : Vec Ideal S4000x128 .f32) (d : Vec Ideal S4000x1 .f32) (x : Vec Ideal S4000x128 .f32)
    (wl wr : Vec Ideal S128x128 .f32) (b : Vec Ideal S1x128 .f32) (p : Fin 4000) (q : Fin 128) :
    k0_pay1 (F := Ideal) agg d x wl wr b (ix2 p q)
      = max (((∑ k : Fin 128, (agg (ix2 p k) * d (ix2 p (0 : Fin 1))) * wl (ix2 k q))
          + ∑ k : Fin 128, x (ix2 p k) * wr (ix2 k q)) + b (ix2 (0 : Fin 1) q)) (Ideal.ofBits .f32 0x00000000#32) := by
  unfold k0_pay1
  simp only [shapeCast_self]
  rw [maximumf_apply, addf_apply, addf_apply, mm_hidden, mm_hidden, bcast_row128, broadcast_apply]
  simp only [truncf_apply, mulf_apply, bcast_col128]
  rfl

/-- LAYER 1's projected block at `(p, j)`: the hidden row contracted with the next layer's left weight. -/
theorem projected_apply (agg : Vec Ideal S4000x128 .f32) (d : Vec Ideal S4000x1 .f32) (x : Vec Ideal S4000x128 .f32)
    (wl wr : Vec Ideal S128x128 .f32) (b : Vec Ideal S1x128 .f32) (w2 : Vec Ideal S128x64 .f32) (p : Fin 4000) (j : Fin 64) :
    k0_pay2 (F := Ideal) agg d x wl wr b w2 (ix2 p j)
      = ∑ k : Fin 128, k0_pay1 (F := Ideal) agg d x wl wr b (ix2 p k) * w2 (ix2 k j) := by
  unfold k0_pay2
  rw [mm_out]
  simp only [truncf_apply]

/-- LAYER 2's block at `(p, j)`: `(Σ_k h[p,k] W_r[k,j] + agg'[p,j] · d[p]) + b[j]`. -/
theorem out_apply (agg : Vec Ideal S4000x64 .f32) (d : Vec Ideal S4000x1 .f32) (h : Vec Ideal S4000x128 .f32)
    (wr : Vec Ideal S128x64 .f32) (b : Vec Ideal S1x64 .f32) (p : Fin 4000) (j : Fin 64) :
    k1_pay1 (F := Ideal) agg d h wr b (ix2 p j)
      = ((∑ k : Fin 128, h (ix2 p k) * wr (ix2 k j)) + agg (ix2 p j) * d (ix2 p (0 : Fin 1))) + b (ix2 (0 : Fin 1) j) := by
  unfold k1_pay1
  simp only [shapeCast_self]
  rw [addf_apply, addf_apply, mm_out, bcast_row64, mulf_apply, bcast_col64]
  simp only [truncf_apply]

end Cert.KernelIdeal.Body
-- ==== Proof.KernelLayer1.lean ====
/-
  The layer-1 region: its two output arrays as whole-array functions of what the region finds.

  The grid has 25 points; point `t` works on nodes `4000 t … 4000 t + 3999`. The aggregate, the features, the
  inverse-degree column and both outputs move with the grid, block row `t`; the two weight matrices, the bias row
  and the next layer's weight are resident, block `0`. So element `(p, k)` of a moving block is element
  `(4000 t + p, k)` of its array, and what point `t` writes back is block `t` of one function of the arrays as the
  region finds them: the hidden layer `hiddenOf`, and its projection `projectedOf`. The 25 blocks tile the 100000
  rows, so after the region each output array IS that function.
-/
import proofs.«136426_j72911364817007_2_alg».proof.Proof.Gen.KernelIdeal.Frame
import proofs.«136426_j72911364817007_2_alg».proof.Proof.KernelBody

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a window that moves with the grid is at block row `t`, a resident window
    stays at block `0`, and no window moves along the feature axis. -/
structure IdxFacts0 (t : Fin cfg0.N) : Prop where
  r0 : win0_0.index t (0 : Fin 2) = t.val
  c0 : win0_0.index t (1 : Fin 2) = 0
  r1 : win0_1.index t (0 : Fin 2) = t.val
  c1 : win0_1.index t (1 : Fin 2) = 0
  r2 : win0_2.index t (0 : Fin 2) = t.val
  c2 : win0_2.index t (1 : Fin 2) = 0
  r3 : win0_3.index t (0 : Fin 2) = 0
  c3 : win0_3.index t (1 : Fin 2) = 0
  r4 : win0_4.index t (0 : Fin 2) = 0
  c4 : win0_4.index t (1 : Fin 2) = 0
  r5 : win0_5.index t (0 : Fin 2) = 0
  c5 : win0_5.index t (1 : Fin 2) = 0
  r6 : win0_6.index t (0 : Fin 2) = 0
  c6 : win0_6.index t (1 : Fin 2) = 0
  r7 : win0_7.index t (0 : Fin 2) = t.val
  c7 : win0_7.index t (1 : Fin 2) = 0
  r8 : win0_8.index t (0 : Fin 2) = t.val
  c8 : win0_8.index t (1 : Fin 2) = 0

theorem idx0 (t : Fin cfg0.N) : IdxFacts0 t := by
  have h := (by decide +kernel : ∀ t : Fin grid0.N,
      win0_0.index t (0 : Fin 2) = t.val ∧ win0_0.index t (1 : Fin 2) = 0
      ∧ win0_1.index t (0 : Fin 2) = t.val ∧ win0_1.index t (1 : Fin 2) = 0
      ∧ win0_2.index t (0 : Fin 2) = t.val ∧ win0_2.index t (1 : Fin 2) = 0
      ∧ win0_3.index t (0 : Fin 2) = 0 ∧ win0_3.index t (1 : Fin 2) = 0
      ∧ win0_4.index t (0 : Fin 2) = 0 ∧ win0_4.index t (1 : Fin 2) = 0
      ∧ win0_5.index t (0 : Fin 2) = 0 ∧ win0_5.index t (1 : Fin 2) = 0
      ∧ win0_6.index t (0 : Fin 2) = 0 ∧ win0_6.index t (1 : Fin 2) = 0
      ∧ win0_7.index t (0 : Fin 2) = t.val ∧ win0_7.index t (1 : Fin 2) = 0
      ∧ win0_8.index t (0 : Fin 2) = t.val ∧ win0_8.index t (1 : Fin 2) = 0) t
  exact ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2.1, h.2.2.2.2.2.2.2.2.2.2.2.2.2.2.1, h.2.2.2.2.2.2.2.2.2.2.2.2.2.2.2.1, h.2.2.2.2.2.2.2.2.2.2.2.2.2.2.2.2.1, h.2.2.2.2.2.2.2.2.2.2.2.2.2.2.2.2.2⟩

/-- The node that row `p` of point `t`'s block is. -/
def node0 (t : Fin cfg0.N) (p : Fin 4000) : Fin 100000 :=
  ⟨t.val * 4000 + p.val, by have h : t.val < 25 := Nat.lt_of_lt_of_eq t.isLt N_0; have := p.isLt; omega⟩

/-! ## Where a block's element sits in its array -/

theorem emb0_0 (t : Fin cfg0.N) (p : Fin 4000) (k : Fin 128) :
    ((cfg0.win 0).blk t).view.emb (ix2 p k) = ix2 (node0 t p) k := by
  funext a; apply Fin.ext
  match a with
  | ⟨0, _⟩ => show win0_0.index t (0 : Fin 2) * 4000 + 1 * p.val = t.val * 4000 + p.val; rw [(idx0 t).r0]; omega
  | ⟨1, _⟩ => show win0_0.index t (1 : Fin 2) * 128 + 1 * k.val = k.val; rw [(idx0 t).c0]; omega

theorem emb0_1 (t : Fin cfg0.N) (p : Fin 4000) (k : Fin 128) :
    ((cfg0.win 1).blk t).view.emb (ix2 p k) = ix2 (node0 t p) k := by
  funext a; apply Fin.ext
  match a with
  | ⟨0, _⟩ => show win0_1.index t (0 : Fin 2) * 4000 + 1 * p.val = t.val * 4000 + p.val; rw [(idx0 t).r1]; omega
  | ⟨1, _⟩ => show win0_1.index t (1 : Fin 2) * 128 + 1 * k.val = k.val; rw [(idx0 t).c1]; omega

theorem emb0_2 (t : Fin cfg0.N) (p : Fin 4000) (k : Fin 1) :
    ((cfg0.win 2).blk t).view.emb (ix2 p k) = ix2 (node0 t p) k := by
  funext a; apply Fin.ext
  match a with
  | ⟨0, _⟩ => show win0_2.index t (0 : Fin 2) * 4000 + 1 * p.val = t.val * 4000 + p.val; rw [(idx0 t).r2]; omega
  | ⟨1, _⟩ => show win0_2.index t (1 : Fin 2) * 1 + 1 * k.val = k.val; rw [(idx0 t).c2]; omega

theorem emb0_3 (t : Fin cfg0.N) (p : Fin 128) (k : Fin 128) :
    ((cfg0.win 3).blk t).view.emb (ix2 p k) = ix2 p k := by
  funext a; apply Fin.ext
  match a with
  | ⟨0, _⟩ => show win0_3.index t (0 : Fin 2) * 128 + 1 * p.val = p.val; rw [(idx0 t).r3]; omega
  | ⟨1, _⟩ => show win0_3.index t (1 : Fin 2) * 128 + 1 * k.val = k.val; rw [(idx0 t).c3]; omega

theorem emb0_4 (t : Fin cfg0.N) (p : Fin 128) (k : Fin 128) :
    ((cfg0.win 4).blk t).view.emb (ix2 p k) = ix2 p k := by
  funext a; apply Fin.ext
  match a with
  | ⟨0, _⟩ => show win0_4.index t (0 : Fin 2) * 128 + 1 * p.val = p.val; rw [(idx0 t).r4]; omega
  | ⟨1, _⟩ => show win0_4.index t (1 : Fin 2) * 128 + 1 * k.val = k.val; rw [(idx0 t).c4]; omega

theorem emb0_5 (t : Fin cfg0.N) (p : Fin 1) (k : Fin 128) :
    ((cfg0.win 5).blk t).view.emb (ix2 p k) = ix2 p k := by
  funext a; apply Fin.ext
  match a with
  | ⟨0, _⟩ => show win0_5.index t (0 : Fin 2) * 1 + 1 * p.val = p.val; rw [(idx0 t).r5]; omega
  | ⟨1, _⟩ => show win0_5.index t (1 : Fin 2) * 128 + 1 * k.val = k.val; rw [(idx0 t).c5]; omega

theorem emb0_6 (t : Fin cfg0.N) (p : Fin 128) (k : Fin 64) :
    ((cfg0.win 6).blk t).view.emb (ix2 p k) = ix2 p k := by
  funext a; apply Fin.ext
  match a with
  | ⟨0, _⟩ => show win0_6.index t (0 : Fin 2) * 128 + 1 * p.val = p.val; rw [(idx0 t).r6]; omega
  | ⟨1, _⟩ => show win0_6.index t (1 : Fin 2) * 64 + 1 * k.val = k.val; rw [(idx0 t).c6]; omega

theorem emb0_7 (t : Fin cfg0.N) (p : Fin 4000) (k : Fin 128) :
    ((cfg0.win 7).blk t).view.emb (ix2 p k) = ix2 (node0 t p) k := by
  funext a; apply Fin.ext
  match a with
  | ⟨0, _⟩ => show win0_7.index t (0 : Fin 2) * 4000 + 1 * p.val = t.val * 4000 + p.val; rw [(idx0 t).r7]; omega
  | ⟨1, _⟩ => show win0_7.index t (1 : Fin 2) * 128 + 1 * k.val = k.val; rw [(idx0 t).c7]; omega

theorem emb0_8 (t : Fin cfg0.N) (p : Fin 4000) (k : Fin 64) :
    ((cfg0.win 8).blk t).view.emb (ix2 p k) = ix2 (node0 t p) k := by
  funext a; apply Fin.ext
  match a with
  | ⟨0, _⟩ => show win0_8.index t (0 : Fin 2) * 4000 + 1 * p.val = t.val * 4000 + p.val; rw [(idx0 t).r8]; omega
  | ⟨1, _⟩ => show win0_8.index t (1 : Fin 2) * 64 + 1 * k.val = k.val; rw [(idx0 t).c8]; omega

/-! ## A block read at an element -/

theorem read0_0 (c : Dev nD) (t : Fin cfg0.N) (p : Fin 4000) (k : Fin 128) :
    (iblk0 V c 0 t (ix2 p k) : EReal) = (V c main_v22 : S100000x128.Idx → EReal) (ix2 (node0 t p) k) := by
  show (V c main_v22 : S100000x128.Idx → EReal) (((cfg0.win 0).blk t).view.emb (ix2 p k)) = _
  rw [emb0_0]

theorem read0_1 (c : Dev nD) (t : Fin cfg0.N) (p : Fin 4000) (k : Fin 128) :
    (iblk0 V c 1 t (ix2 p k) : EReal) = (V c main_arg0 : S100000x128.Idx → EReal) (ix2 (node0 t p) k) := by
  show (V c main_arg0 : S100000x128.Idx → EReal) (((cfg0.win 1).blk t).view.emb (ix2 p k)) = _
  rw [emb0_1]

theorem read0_2 (c : Dev nD) (t : Fin cfg0.N) (p : Fin 4000) (k : Fin 1) :
    (iblk0 V c 2 t (ix2 p k) : EReal) = (V c main_v12 : S100000x1.Idx → EReal) (ix2 (node0 t p) k) := by
  show (V c main_v12 : S100000x1.Idx → EReal) (((cfg0.win 2).blk t).view.emb (ix2 p k)) = _
  rw [emb0_2]

theorem read0_3 (c : Dev nD) (t : Fin cfg0.N) (p : Fin 128) (k : Fin 128) :
    (iblk0 V c 3 t (ix2 p k) : EReal) = (V c main_arg2 : S128x128.Idx → EReal) (ix2 p k) := by
  show (V c main_arg2 : S128x128.Idx → EReal) (((cfg0.win 3).blk t).view.emb (ix2 p k)) = _
  rw [emb0_3]

theorem read0_4 (c : Dev nD) (t : Fin cfg0.N) (p : Fin 128) (k : Fin 128) :
    (iblk0 V c 4 t (ix2 p k) : EReal) = (V c main_arg4 : S128x128.Idx → EReal) (ix2 p k) := by
  show (V c main_arg4 : S128x128.Idx → EReal) (((cfg0.win 4).blk t).view.emb (ix2 p k)) = _
  rw [emb0_4]

theorem read0_5 (c : Dev nD) (t : Fin cfg0.N) (p : Fin 1) (k : Fin 128) :
    (iblk0 V c 5 t (ix2 p k) : EReal) = (V c main_v23 : S1x128.Idx → EReal) (ix2 p k) := by
  show (V c main_v23 : S1x128.Idx → EReal) (((cfg0.win 5).blk t).view.emb (ix2 p k)) = _
  rw [emb0_5]

theorem read0_6 (c : Dev nD) (t : Fin cfg0.N) (p : Fin 128) (k : Fin 64) :
    (iblk0 V c 6 t (ix2 p k) : EReal) = (V c main_arg5 : S128x64.Idx → EReal) (ix2 p k) := by
  show (V c main_arg5 : S128x64.Idx → EReal) (((cfg0.win 6).blk t).view.emb (ix2 p k)) = _
  rw [emb0_6]

/-! ## The two outputs as whole-array functions -/

/-- The hidden layer at node `n`, feature `q`, from the aggregate, the features, the inverse-degree column, the two
    weights and the bias row. -/
def hiddenAt (agg x : S100000x128.Idx → EReal) (d : S100000x1.Idx → EReal) (wl wr : S128x128.Idx → EReal)
    (b : S1x128.Idx → EReal) (n : Fin 100000) (q : Fin 128) : EReal :=
  max (((∑ k : Fin 128, (agg (ix2 n k) * d (ix2 n (0 : Fin 1))) * wl (ix2 k q))
    + ∑ k : Fin 128, x (ix2 n k) * wr (ix2 k q)) + b (ix2 (0 : Fin 1) q)) (Ideal.ofBits .f32 0x00000000#32)

/-- The hidden layer as an array. -/
def hiddenOf (agg x : S100000x128.Idx → EReal) (d : S100000x1.Idx → EReal) (wl wr : S128x128.Idx → EReal)
    (b : S1x128.Idx → EReal) : S100000x128.Idx → EReal := fun i => hiddenAt agg x d wl wr b (i 0) (i 1)

/-- The hidden layer projected by the next layer's left weight, as an array. -/
def projectedOf (agg x : S100000x128.Idx → EReal) (d : S100000x1.Idx → EReal) (wl wr : S128x128.Idx → EReal)
    (b : S1x128.Idx → EReal) (w2 : S128x64.Idx → EReal) : S100000x64.Idx → EReal :=
  fun i => ∑ k : Fin 128, hiddenAt agg x d wl wr b (i 0) k * w2 (ix2 k (i 1))

/-- The hidden block of point `t` at `(p, q)` is the hidden layer at node `4000 t + p`. -/
theorem hidden_block (c : Dev nD) (t : Fin cfg0.N) (p : Fin 4000) (q : Fin 128) :
    k0_pay1 (F := Ideal) (iblk0 V c 0 t) (iblk0 V c 2 t) (iblk0 V c 1 t) (iblk0 V c 3 t) (iblk0 V c 4 t) (iblk0 V c 5 t) (ix2 p q)
      = hiddenAt (V c main_v22) (V c main_arg0) (V c main_v12) (V c main_arg2) (V c main_arg4) (V c main_v23) (node0 t p) q := by
  refine (Body.hidden_apply _ _ _ _ _ _ p q).trans ?_
  simp only [read0_0, read0_1, read0_2, read0_3, read0_4, read0_5]
  rfl

/-- WHAT POINT `t` WRITES BACK to the hidden array is block `t` of `hiddenOf` of the arrays the region finds. -/
theorem flushed_hidden (c : Dev nD) (t : Fin cfg0.N) :
    (dat0 V c).flushed 7 t = ((cfg0.win 7).blk t).view.read (Elt Ideal)
      (hiddenOf (V c main_v22) (V c main_arg0) (V c main_v12) (V c main_arg2) (V c main_arg4) (V c main_v23)) := by
  show (cfg0.win 7).cut (grid0.coords t) ((dat0 V c).after 7 t) = _
  rw [after0_7]
  unfold out0_7
  rw [View.canon_unit_zero hz]
  simp only [View.ld_unit_zero (S := S4000x128) hz, View.ld_unit_zero (S := S4000x1) hz, View.ld_unit_zero (S := S128x128) hz,
    View.ld_unit_zero (S := S1x128) hz]
  funext y
  obtain ⟨p, q, rfl⟩ : ∃ (p : Fin 4000) (q : Fin 128), y = ix2 p q := ⟨y 0, y 1, eq_ix2 y⟩
  refine (hidden_block V c t p q).trans ?_
  show _ = hiddenOf (V c main_v22) (V c main_arg0) (V c main_v12) (V c main_arg2) (V c main_arg4) (V c main_v23)
    (((cfg0.win 7).blk t).view.emb (ix2 p q))
  rw [emb0_7]
  rfl

/-- WHAT POINT `t` WRITES BACK to the projected array is block `t` of `projectedOf`. -/
theorem flushed_projected (c : Dev nD) (t : Fin cfg0.N) :
    (dat0 V c).flushed 8 t = ((cfg0.win 8).blk t).view.read (Elt Ideal)
      (projectedOf (V c main_v22) (V c main_arg0) (V c main_v12) (V c main_arg2) (V c main_arg4) (V c main_v23) (V c main_arg5)) := by
  show (cfg0.win 8).cut (grid0.coords t) ((dat0 V c).after 8 t) = _
  rw [after0_8]
  unfold out0_8
  rw [View.canon_unit_zero hz]
  simp only [View.ld_unit_zero (S := S4000x128) hz, View.ld_unit_zero (S := S4000x1) hz, View.ld_unit_zero (S := S128x128) hz,
    View.ld_unit_zero (S := S1x128) hz, View.ld_unit_zero (S := S128x64) hz]
  funext y
  obtain ⟨p, j, rfl⟩ : ∃ (p : Fin 4000) (j : Fin 64), y = ix2 p j := ⟨y 0, y 1, eq_ix2 y⟩
  refine (Body.projected_apply _ _ _ _ _ _ _ p j).trans ?_
  show _ = projectedOf (V c main_v22) (V c main_arg0) (V c main_v12) (V c main_arg2) (V c main_arg4) (V c main_v23) (V c main_arg5)
    (((cfg0.win 8).blk t).view.emb (ix2 p j))
  rw [emb0_8]
  simp only [hidden_block, read0_6]
  rfl

/-! ## The blocks tile the arrays -/

/-- An index of the array is in point `t`'s block iff each coordinate is in the block's range on its axis. -/
theorem mem_blk_hidden (t : Fin cfg0.N) (i : S100000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v24_0).slice (win0_7.rect t)).set ↔ _
  rw [View.set_slice_whole, Rect.mem_set_unit]
  exact Iff.rfl

/-- Row `r` of the array is in the block of point `r / 4000`, which is written back: the blocks tile the array. -/
theorem cover_hidden (i : S100000x128.Idx) :
    ∃ t : Fin cfg0.N, (cfg0.win 7).flush t = true ∧ i ∈ ((cfg0.win 7).blk t).view.set := by
  have hi0 : (i 0).val < 100000 := idx2_lt0 i
  have hi1 : (i 1).val < 128 := idx2_lt1 i
  have hlt : (i 0).val / 4000 < cfg0.N := Nat.lt_of_lt_of_eq (by omega : (i 0).val / 4000 < 25) N_0.symm
  refine ⟨⟨(i 0).val / 4000, hlt⟩, flush0_7 _, ?_⟩
  rw [mem_blk_hidden]
  intro a
  match a with
  | ⟨0, _⟩ =>
    show win0_7.index ⟨(i 0).val / 4000, hlt⟩ (0 : Fin 2) * 4000 ≤ (i 0).val
      ∧ (i 0).val < win0_7.index ⟨(i 0).val / 4000, hlt⟩ (0 : Fin 2) * 4000 + 4000
    rw [(idx0 ⟨(i 0).val / 4000, hlt⟩).r7]
    show (i 0).val / 4000 * 4000 ≤ (i 0).val ∧ (i 0).val < (i 0).val / 4000 * 4000 + 4000
    omega
  | ⟨1, _⟩ =>
    show win0_7.index ⟨(i 0).val / 4000, hlt⟩ (1 : Fin 2) * 128 ≤ (i 1).val
      ∧ (i 1).val < win0_7.index ⟨(i 0).val / 4000, hlt⟩ (1 : Fin 2) * 128 + 128
    rw [(idx0 ⟨(i 0).val / 4000, hlt⟩).c7]
    omega

/-- An index of the array is in point `t`'s block iff each coordinate is in the block's range on its axis. -/
theorem mem_blk_projected (t : Fin cfg0.N) (i : S100000x64.Idx) :
    i ∈ ((cfg0.win 8).blk t).view.set ↔ ∀ a : Fin 2, win0_8.index t a * S4000x64.size a ≤ (i a).val
      ∧ (i a).val < win0_8.index t a * S4000x64.size a + S4000x64.size a := by
  show i ∈ ((View.whole main_v24_1).slice (win0_8.rect t)).set ↔ _
  rw [View.set_slice_whole, Rect.mem_set_unit]
  exact Iff.rfl

/-- Row `r` of the array is in the block of point `r / 4000`, which is written back: the blocks tile the array. -/
theorem cover_projected (i : S100000x64.Idx) :
    ∃ t : Fin cfg0.N, (cfg0.win 8).flush t = true ∧ i ∈ ((cfg0.win 8).blk t).view.set := by
  have hi0 : (i 0).val < 100000 := idx2_lt0 i
  have hi1 : (i 1).val < 64 := idx2_lt1 i
  have hlt : (i 0).val / 4000 < cfg0.N := Nat.lt_of_lt_of_eq (by omega : (i 0).val / 4000 < 25) N_0.symm
  refine ⟨⟨(i 0).val / 4000, hlt⟩, flush0_8 _, ?_⟩
  rw [mem_blk_projected]
  intro a
  match a with
  | ⟨0, _⟩ =>
    show win0_8.index ⟨(i 0).val / 4000, hlt⟩ (0 : Fin 2) * 4000 ≤ (i 0).val
      ∧ (i 0).val < win0_8.index ⟨(i 0).val / 4000, hlt⟩ (0 : Fin 2) * 4000 + 4000
    rw [(idx0 ⟨(i 0).val / 4000, hlt⟩).r8]
    show (i 0).val / 4000 * 4000 ≤ (i 0).val ∧ (i 0).val < (i 0).val / 4000 * 4000 + 4000
    omega
  | ⟨1, _⟩ =>
    show win0_8.index ⟨(i 0).val / 4000, hlt⟩ (1 : Fin 2) * 64 ≤ (i 1).val
      ∧ (i 1).val < win0_8.index ⟨(i 0).val / 4000, hlt⟩ (1 : Fin 2) * 64 + 64
    rw [(idx0 ⟨(i 0).val / 4000, hlt⟩).c8]
    omega

/-! ## The arrays after the region -/

/-- After the region the hidden array is `hiddenOf` of the arrays the region found. -/
theorem final_hidden (c : Dev nD) :
    (dat0 V c).arrAt 7 cfg0.N
      = hiddenOf (V c main_v22) (V c main_arg0) (V c main_v12) (V c main_arg2) (V c main_arg4) (V c main_v23) :=
  (dat0 V c).arrAt_eq_of_cover 7 _ (fun t _ => flushed_hidden V c t) cover_hidden

/-- After the region the projected array is `projectedOf` of the arrays the region found. -/
theorem final_projected (c : Dev nD) :
    (dat0 V c).arrAt 8 cfg0.N
      = projectedOf (V c main_v22) (V c main_arg0) (V c main_v12) (V c main_arg2) (V c main_arg4) (V c main_v23) (V c main_arg5) :=
  (dat0 V c).arrAt_eq_of_cover 8 _ (fun t _ => flushed_projected V c t) cover_projected

end Cert.KernelIdeal.Layer1
-- ==== Proof.KernelLayer2.lean ====
/-
  The layer-2 region: its output array as a whole-array function of what the region finds.

  As in layer 1 the grid has 25 points and point `t` works on nodes `4000 t … 4000 t + 3999`: the projected
  aggregate, the hidden array, the inverse-degree column and the output move with the grid; the right weight and the
  bias row are resident. What point `t` writes back is block `t` of `outOf` — at node `n`, class `j`:
  `(Σ_k h[n,k] W_r[k,j] + agg'[n,j] · d[n]) + b[j]` — and the blocks tile the output.
-/
import proofs.«136426_j72911364817007_2_alg».proof.Proof.Gen.KernelIdeal.Frame
import proofs.«136426_j72911364817007_2_alg».proof.Proof.KernelBody

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a window that moves with the grid is at block row `t`, a resident window
    stays at block `0`, and no window moves along the feature axis. -/
structure IdxFacts1 (t : Fin cfg1.N) : Prop where
  r0 : win1_0.index t (0 : Fin 2) = t.val
  c0 : win1_0.index t (1 : Fin 2) = 0
  r1 : win1_1.index t (0 : Fin 2) = t.val
  c1 : win1_1.index t (1 : Fin 2) = 0
  r2 : win1_2.index t (0 : Fin 2) = t.val
  c2 : win1_2.index t (1 : Fin 2) = 0
  r3 : win1_3.index t (0 : Fin 2) = 0
  c3 : win1_3.index t (1 : Fin 2) = 0
  r4 : win1_4.index t (0 : Fin 2) = 0
  c4 : win1_4.index t (1 : Fin 2) = 0
  r5 : win1_5.index t (0 : Fin 2) = t.val
  c5 : win1_5.index t (1 : Fin 2) = 0

theorem idx1 (t : Fin cfg1.N) : IdxFacts1 t := by
  have h := (by decide +kernel : ∀ t : Fin grid1.N,
      win1_0.index t (0 : Fin 2) = t.val ∧ win1_0.index t (1 : Fin 2) = 0
      ∧ win1_1.index t (0 : Fin 2) = t.val ∧ win1_1.index t (1 : Fin 2) = 0
      ∧ win1_2.index t (0 : Fin 2) = t.val ∧ win1_2.index t (1 : Fin 2) = 0
      ∧ win1_3.index t (0 : Fin 2) = 0 ∧ win1_3.index t (1 : Fin 2) = 0
      ∧ win1_4.index t (0 : Fin 2) = 0 ∧ win1_4.index t (1 : Fin 2) = 0
      ∧ win1_5.index t (0 : Fin 2) = t.val ∧ win1_5.index t (1 : Fin 2) = 0) t
  exact ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2⟩

/-- The node that row `p` of point `t`'s block is. -/
def node1 (t : Fin cfg1.N) (p : Fin 4000) : Fin 100000 :=
  ⟨t.val * 4000 + p.val, by have h : t.val < 25 := Nat.lt_of_lt_of_eq t.isLt N_1; have := p.isLt; omega⟩

/-! ## Where a block's element sits in its array -/

theorem emb1_0 (t : Fin cfg1.N) (p : Fin 4000) (k : Fin 64) :
    ((cfg1.win 0).blk t).view.emb (ix2 p k) = ix2 (node1 t p) k := by
  funext a; apply Fin.ext
  match a with
  | ⟨0, _⟩ => show win1_0.index t (0 : Fin 2) * 4000 + 1 * p.val = t.val * 4000 + p.val; rw [(idx1 t).r0]; omega
  | ⟨1, _⟩ => show win1_0.index t (1 : Fin 2) * 64 + 1 * k.val = k.val; rw [(idx1 t).c0]; omega

theorem emb1_1 (t : Fin cfg1.N) (p : Fin 4000) (k : Fin 128) :
    ((cfg1.win 1).blk t).view.emb (ix2 p k) = ix2 (node1 t p) k := by
  funext a; apply Fin.ext
  match a with
  | ⟨0, _⟩ => show win1_1.index t (0 : Fin 2) * 4000 + 1 * p.val = t.val * 4000 + p.val; rw [(idx1 t).r1]; omega
  | ⟨1, _⟩ => show win1_1.index t (1 : Fin 2) * 128 + 1 * k.val = k.val; rw [(idx1 t).c1]; omega

theorem emb1_2 (t : Fin cfg1.N) (p : Fin 4000) (k : Fin 1) :
    ((cfg1.win 2).blk t).view.emb (ix2 p k) = ix2 (node1 t p) k := by
  funext a; apply Fin.ext
  match a with
  | ⟨0, _⟩ => show win1_2.index t (0 : Fin 2) * 4000 + 1 * p.val = t.val * 4000 + p.val; rw [(idx1 t).r2]; omega
  | ⟨1, _⟩ => show win1_2.index t (1 : Fin 2) * 1 + 1 * k.val = k.val; rw [(idx1 t).c2]; omega

theorem emb1_3 (t : Fin cfg1.N) (p : Fin 128) (k : Fin 64) :
    ((cfg1.win 3).blk t).view.emb (ix2 p k) = ix2 p k := by
  funext a; apply Fin.ext
  match a with
  | ⟨0, _⟩ => show win1_3.index t (0 : Fin 2) * 128 + 1 * p.val = p.val; rw [(idx1 t).r3]; omega
  | ⟨1, _⟩ => show win1_3.index t (1 : Fin 2) * 64 + 1 * k.val = k.val; rw [(idx1 t).c3]; omega

theorem emb1_4 (t : Fin cfg1.N) (p : Fin 1) (k : Fin 64) :
    ((cfg1.win 4).blk t).view.emb (ix2 p k) = ix2 p k := by
  funext a; apply Fin.ext
  match a with
  | ⟨0, _⟩ => show win1_4.index t (0 : Fin 2) * 1 + 1 * p.val = p.val; rw [(idx1 t).r4]; omega
  | ⟨1, _⟩ => show win1_4.index t (1 : Fin 2) * 64 + 1 * k.val = k.val; rw [(idx1 t).c4]; omega

theorem emb1_5 (t : Fin cfg1.N) (p : Fin 4000) (k : Fin 64) :
    ((cfg1.win 5).blk t).view.emb (ix2 p k) = ix2 (node1 t p) k := by
  funext a; apply Fin.ext
  match a with
  | ⟨0, _⟩ => show win1_5.index t (0 : Fin 2) * 4000 + 1 * p.val = t.val * 4000 + p.val; rw [(idx1 t).r5]; omega
  | ⟨1, _⟩ => show win1_5.index t (1 : Fin 2) * 64 + 1 * k.val = k.val; rw [(idx1 t).c5]; omega

/-! ## A block read at an element -/

theorem read1_0 (c : Dev nD) (t : Fin cfg1.N) (p : Fin 4000) (k : Fin 64) :
    (iblk1 V c 0 t (ix2 p k) : EReal) = (V c main_v34 : S100000x64.Idx → EReal) (ix2 (node1 t p) k) := by
  show (V c main_v34 : S100000x64.Idx → EReal) (((cfg1.win 0).blk t).view.emb (ix2 p k)) = _
  rw [emb1_0]

theorem read1_1 (c : Dev nD) (t : Fin cfg1.N) (p : Fin 4000) (k : Fin 128) :
    (iblk1 V c 1 t (ix2 p k) : EReal) = (V c main_v24_0 : S100000x128.Idx → EReal) (ix2 (node1 t p) k) := by
  show (V c main_v24_0 : S100000x128.Idx → EReal) (((cfg1.win 1).blk t).view.emb (ix2 p k)) = _
  rw [emb1_1]

theorem read1_2 (c : Dev nD) (t : Fin cfg1.N) (p : Fin 4000) (k : Fin 1) :
    (iblk1 V c 2 t (ix2 p k) : EReal) = (V c main_v12 : S100000x1.Idx → EReal) (ix2 (node1 t p) k) := by
  show (V c main_v12 : S100000x1.Idx → EReal) (((cfg1.win 2).blk t).view.emb (ix2 p k)) = _
  rw [emb1_2]

theorem read1_3 (c : Dev nD) (t : Fin cfg1.N) (p : Fin 128) (k : Fin 64) :
    (iblk1 V c 3 t (ix2 p k) : EReal) = (V c main_arg7 : S128x64.Idx → EReal) (ix2 p k) := by
  show (V c main_arg7 : S128x64.Idx → EReal) (((cfg1.win 3).blk t).view.emb (ix2 p k)) = _
  rw [emb1_3]

theorem read1_4 (c : Dev nD) (t : Fin cfg1.N) (p : Fin 1) (k : Fin 64) :
    (iblk1 V c 4 t (ix2 p k) : EReal) = (V c main_v35 : S1x64.Idx → EReal) (ix2 p k) := by
  show (V c main_v35 : S1x64.Idx → EReal) (((cfg1.win 4).blk t).view.emb (ix2 p k)) = _
  rw [emb1_4]

/-! ## The output as a whole-array function -/

/-- The second layer at node `n`, class `j`, from the projected aggregate, the hidden array, the inverse-degree
    column, the right weight and the bias row. -/
def outAt (agg : S100000x64.Idx → EReal) (h : S100000x128.Idx → EReal) (d : S100000x1.Idx → EReal)
    (wr : S128x64.Idx → EReal) (b : S1x64.Idx → EReal) (n : Fin 100000) (j : Fin 64) : EReal :=
  ((∑ k : Fin 128, h (ix2 n k) * wr (ix2 k j)) + agg (ix2 n j) * d (ix2 n (0 : Fin 1))) + b (ix2 (0 : Fin 1) j)

/-- The second layer as an array. -/
def outOf (agg : S100000x64.Idx → EReal) (h : S100000x128.Idx → EReal) (d : S100000x1.Idx → EReal)
    (wr : S128x64.Idx → EReal) (b : S1x64.Idx → EReal) : S100000x64.Idx → EReal :=
  fun i => outAt agg h d wr b (i 0) (i 1)

/-- WHAT POINT `t` WRITES BACK is block `t` of `outOf` of the arrays the region finds. -/
theorem flushed_out (c : Dev nD) (t : Fin cfg1.N) :
    (dat1 V c).flushed 5 t = ((cfg1.win 5).blk t).view.read (Elt Ideal)
      (outOf (V c main_v34) (V c main_v24_0) (V c main_v12) (V c main_arg7) (V c main_v35)) := by
  show (cfg1.win 5).cut (grid1.coords t) ((dat1 V c).after 5 t) = _
  rw [after1_5]
  unfold out1_5
  rw [View.canon_unit_zero hz]
  simp only [View.ld_unit_zero (S := S4000x64) hz, View.ld_unit_zero (S := S4000x1) hz, View.ld_unit_zero (S := S4000x128) hz,
    View.ld_unit_zero (S := S128x64) hz, View.ld_unit_zero (S := S1x64) hz]
  funext y
  obtain ⟨p, j, rfl⟩ : ∃ (p : Fin 4000) (j : Fin 64), y = ix2 p j := ⟨y 0, y 1, eq_ix2 y⟩
  refine (Body.out_apply _ _ _ _ _ p j).trans ?_
  show _ = outOf (V c main_v34) (V c main_v24_0) (V c main_v12) (V c main_arg7) (V c main_v35)
    (((cfg1.win 5).blk t).view.emb (ix2 p j))
  rw [emb1_5]
  simp only [read1_0, read1_1, read1_2, read1_3, read1_4]
  rfl

/-! ## The blocks tile the array -/

/-- An index of the array is in point `t`'s block iff each coordinate is in the block's range on its axis. -/
theorem mem_blk_out (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v36).slice (win1_5.rect t)).set ↔ _
  rw [View.set_slice_whole, Rect.mem_set_unit]
  exact Iff.rfl

/-- Row `r` of the array is in the block of point `r / 4000`, which is written back: the blocks tile the array. -/
theorem cover_out (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have hlt : (i 0).val / 4000 < cfg1.N := Nat.lt_of_lt_of_eq (by omega : (i 0).val / 4000 < 25) N_1.symm
  refine ⟨⟨(i 0).val / 4000, hlt⟩, flush1_5 _, ?_⟩
  rw [mem_blk_out]
  intro a
  match a with
  | ⟨0, _⟩ =>
    show win1_5.index ⟨(i 0).val / 4000, hlt⟩ (0 : Fin 2) * 4000 ≤ (i 0).val
      ∧ (i 0).val < win1_5.index ⟨(i 0).val / 4000, hlt⟩ (0 : Fin 2) * 4000 + 4000
    rw [(idx1 ⟨(i 0).val / 4000, hlt⟩).r5]
    show (i 0).val / 4000 * 4000 ≤ (i 0).val ∧ (i 0).val < (i 0).val / 4000 * 4000 + 4000
    omega
  | ⟨1, _⟩ =>
    show win1_5.index ⟨(i 0).val / 4000, hlt⟩ (1 : Fin 2) * 64 ≤ (i 1).val
      ∧ (i 1).val < win1_5.index ⟨(i 0).val / 4000, hlt⟩ (1 : Fin 2) * 64 + 64
    rw [(idx1 ⟨(i 0).val / 4000, hlt⟩).c5]
    omega

/-- After the region the output array is `outOf` of the arrays the region found. -/
theorem final_out (c : Dev nD) :
    (dat1 V c).arrAt 5 cfg1.N = outOf (V c main_v34) (V c main_v24_0) (V c main_v12) (V c main_arg7) (V c main_v35) :=
  (dat1 V c).arrAt_eq_of_cover 5 _ (fun t _ => flushed_out V c t) cover_out

end Cert.KernelIdeal.Layer2
-- ==== Proof.KernelHost.lean ====
/-
  The kernel's host stretches, read as terms of the arguments, and the buffers the two regions are entered with.

  Before the first region the host computes, from the edge list: the source and destination columns, the in-degree
  by a scatter-add of ones, its clamped inverse as a column, and the first aggregate by a row gather of the features
  followed by a row scatter-add; it also lays the first bias out as a row. Between the regions it gathers the rows of
  the PROJECTED hidden array the first region wrote, scatter-adds them, and lays the second bias out as a row. Every
  other buffer a region reads is an argument, unchanged, or an array the first region left.
-/
import proofs.«136426_j72911364817007_2_alg».proof.Proof.Gen.KernelIdeal.Frame
import proofs.«136426_j72911364817007_2_alg».proof.Proof.KernelLayer1
import proofs.«136426_j72911364817007_2_alg».proof.Proof.KernelLayer2
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo
open Idealize.ShloMosaic.Pipeline (Dat Cfg Window)

/-! ## The host's terms -/

/-- Row `r` of the edge list as a vector of `1600000` numbers. -/
def srcRaw (ei : S2x1600000.Idx → BitVec 32) : S1600000.Idx → BitVec 32 :=
  shapeCast S1600000 (extractStridedSlice S1x1600000 ![0, 0] ei slices_S2x1600000_S1x1600000_0_0) shapeCasts_S1x1600000_S1600000
def dstRaw (ei : S2x1600000.Idx → BitVec 32) : S1600000.Idx → BitVec 32 :=
  shapeCast S1600000 (extractStridedSlice S1x1600000 ![1, 0] ei slices_S2x1600000_S1x1600000_1_0) shapeCasts_S1x1600000_S1600000

/-- The source column: a negative number wrapped by `+100000`, as indexing does. -/
def srcCol (ei : S2x1600000.Idx → BitVec 32) : S1600000x1.Idx → BitVec 32 :=
  broadcastInDim S1600000x1 ![0] bcast_S1600000_S1600000x1_0
    (select (cmpi .slt (srcRaw ei) (broadcastInDim S1600000 ![] bcast_S_S1600000 (constantI S_ 32 0#32)))
      (addi (srcRaw ei) (broadcastInDim S1600000 ![] bcast_S_S1600000 (constantI S_ 32 100000#32))) (srcRaw ei))

/-- The destination column. -/
def dstCol (ei : S2x1600000.Idx → BitVec 32) : S1600000x1.Idx → BitVec 32 :=
  broadcastInDim S1600000x1 ![0] bcast_S1600000_S1600000x1_0 (dstRaw ei)

/-- The inverse in-degree `1 / max (deg, 1)`, `deg` a scatter-add of ones. -/
def invDeg (ei : S2x1600000.Idx → BitVec 32) : S100000.Idx → EReal :=
  Host.divf (F := Ideal) (φ := .f32) (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32)) (dstCol ei)
        (broadcastInDim S1600000 ![] bcast_S_S1600000 (constant S_ .f32 0x3F800000#32)))
      (broadcastInDim S100000 ![] bcast_S_S100000 (constant S_ .f32 0x3F800000#32)))

/-- The same as a column. -/
def invDegCol (ei : S2x1600000.Idx → BitVec 32) : S100000x1.Idx → EReal :=
  shapeCast S100000x1 (invDeg ei) shapeCasts_S100000_S100000x1

/-- The first aggregate: the features' rows gathered by source, scatter-added by destination. -/
def agg1 (x : S100000x128.Idx → EReal) (ei : S2x1600000.Idx → BitVec 32) : S100000x128.Idx → EReal :=
  Host.scatterAdd (F := Ideal) (φ := .f32) scatter_S100000x128_S1600000x1_S1600000x128_1_0_0_1
    (broadcastInDim S100000x128 ![] bcast_S_S100000x128 (constant S_ .f32 0x00000000#32)) (dstCol ei)
    (Host.gather gather_S100000x128_S1600000x1_S1600000x128_1_0_n_n_0_1_1128 x (srcCol ei))

/-- The second aggregate, of an already projected array. -/
def agg2 (pr : S100000x64.Idx → EReal) (ei : S2x1600000.Idx → BitVec 32) : S100000x64.Idx → EReal :=
  Host.scatterAdd (F := Ideal) (φ := .f32) scatter_S100000x64_S1600000x1_S1600000x64_1_0_0_1
    (broadcastInDim S100000x64 ![] bcast_S_S100000x64 (constant S_ .f32 0x00000000#32)) (dstCol ei)
    (Host.gather gather_S100000x64_S1600000x1_S1600000x64_1_0_n_n_0_1_164 pr (srcCol ei))

/-- The biases as rows. -/
def b1row (b : S128.Idx → EReal) : S1x128.Idx → EReal := shapeCast S1x128 b shapeCasts_S128_S1x128
def b2row (b : S64.Idx → EReal) : S1x64.Idx → EReal := shapeCast S1x64 b shapeCasts_S64_S1x64

variable (m : (ℓ : Loc nD τ sig) → Buf (Elt Ideal) ℓ) (ρ : Dev nD → PrngReg) (c : Dev nD)

/-- The edge list, the features and the weights as launched. -/
abbrev ei : S2x1600000.Idx → BitVec 32 := m ((c : Thread nD τ).loc main_arg1)

/-! ## What the first region is entered with -/

set_option maxHeartbeats 2000000 in
theorem V1_agg : (V1 m ρ c main_v22 : S100000x128.Idx → EReal) = agg1 (m ((c : Thread nD τ).loc main_arg0)) (ei m c) := by
  show StableHlo.after hostOps0 (W0 m ρ c) (Proc.devRef .tc main_v22) = _
  after_results
  unfold agg1 srcCol dstCol srcRaw dstRaw ei
  rfl
theorem V1_invDeg : (V1 m ρ c main_v12 : S100000x1.Idx → EReal) = invDegCol (ei m c) := by
  show StableHlo.after hostOps0 (W0 m ρ c) (Proc.devRef .tc main_v12) = _
  after_results
  rfl
theorem V1_bias : (V1 m ρ c main_v23 : S1x128.Idx → EReal) = b1row (m ((c : Thread nD τ).loc main_arg3)) := by
  show StableHlo.after hostOps0 (W0 m ρ c) (Proc.devRef .tc main_v23) = _
  after_results
  rfl
theorem V1_x : V1 m ρ c main_arg0 = m ((c : Thread nD τ).loc main_arg0) := by
  show StableHlo.after hostOps0 (W0 m ρ c) (Proc.devRef .tc main_arg0) = _
  after_results
theorem V1_wl : V1 m ρ c main_arg2 = m ((c : Thread nD τ).loc main_arg2) := by
  show StableHlo.after hostOps0 (W0 m ρ c) (Proc.devRef .tc main_arg2) = _
  after_results
theorem V1_wr : V1 m ρ c main_arg4 = m ((c : Thread nD τ).loc main_arg4) := by
  show StableHlo.after hostOps0 (W0 m ρ c) (Proc.devRef .tc main_arg4) = _
  after_results
theorem V1_w2 : V1 m ρ c main_arg5 = m ((c : Thread nD τ).loc main_arg5) := by
  show StableHlo.after hostOps0 (W0 m ρ c) (Proc.devRef .tc main_arg5) = _
  after_results
theorem W1_src : (W1 m ρ c (Proc.devRef .tc main_v1) : S1600000.Idx → BitVec 32) = srcRaw (ei m c) := by
  show StableHlo.after hostOps0 (W0 m ρ c) (Proc.devRef .tc main_v1) = _
  after_results
  rfl
theorem W1_dst : (W1 m ρ c (Proc.devRef .tc main_v3) : S1600000.Idx → BitVec 32) = dstRaw (ei m c) := by
  show StableHlo.after hostOps0 (W0 m ρ c) (Proc.devRef .tc main_v3) = _
  after_results
  rfl
theorem W1_w2r : W1 m ρ c (Proc.devRef .tc main_arg7) = m ((c : Thread nD τ).loc main_arg7) := by
  show StableHlo.after hostOps0 (W0 m ρ c) (Proc.devRef .tc main_arg7) = _
  after_results
theorem W1_b2 : W1 m ρ c (Proc.devRef .tc main_arg6) = m ((c : Thread nD τ).loc main_arg6) := by
  show StableHlo.after hostOps0 (W0 m ρ c) (Proc.devRef .tc main_arg6) = _
  after_results

end Cert.KernelIdeal.HostSide
-- ==== Proof.KernelBetween.lean ====
/-
  Between and after the regions: what the first region leaves, what the second region is entered with, and the
  result buffer, each as a term of the arguments.
-/
import proofs.«136426_j72911364817007_2_alg».proof.Proof.KernelHost

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo
open Idealize.ShloMosaic.Pipeline (Dat Cfg Window)
open Cert.KernelIdeal.Layer1 Cert.KernelIdeal.Layer2

variable (m : (ℓ : Loc nD τ sig) → Buf (Elt Ideal) ℓ) (ρ : Dev nD → PrngReg) (c : Dev nD)

/-! ## What the first region leaves -/

/-- The hidden array: the first region's first output. -/
theorem W2_hidden : (W2 m ρ c (Proc.devRef .tc main_v24_0) : S100000x128.Idx → EReal) = (hiddenOf (agg1 (m ((c : Thread nD τ).loc main_arg0)) (ei m c)) (m ((c : Thread nD τ).loc main_arg0)) (invDegCol (ei m c)) (m ((c : Thread nD τ).loc main_arg2)) (m ((c : Thread nD τ).loc main_arg4)) (b1row (m ((c : Thread nD τ).loc main_arg3)))) := by
  have h := (W2_arr m ρ c 7).trans (Layer1.final_hidden (V1 m ρ) c)
  rw [V1_agg, V1_x, V1_invDeg, V1_wl, V1_wr, V1_bias] at h
  exact h

/-- The projected array: the first region's second output. -/
theorem W2_projected : (W2 m ρ c (Proc.devRef .tc main_v24_1) : S100000x64.Idx → EReal) = (projectedOf (agg1 (m ((c : Thread nD τ).loc main_arg0)) (ei m c)) (m ((c : Thread nD τ).loc main_arg0)) (invDegCol (ei m c)) (m ((c : Thread nD τ).loc main_arg2)) (m ((c : Thread nD τ).loc main_arg4)) (b1row (m ((c : Thread nD τ).loc main_arg3))) (m ((c : Thread nD τ).loc main_arg5))) := by
  have h := (W2_arr m ρ c 8).trans (Layer1.final_projected (V1 m ρ) c)
  rw [V1_agg, V1_x, V1_invDeg, V1_wl, V1_wr, V1_bias, V1_w2] at h
  exact h

/-- The inverse-degree column is an input of the first region: unchanged. -/
theorem W2_invDeg : (W2 m ρ c (Proc.devRef .tc main_v12) : S100000x1.Idx → EReal) = invDegCol (ei m c) :=
  ((W2_arr m ρ c 2).trans (((dat0 (V1 m ρ) c).arrAt_in 2 rfl _).trans (A_eq0 (V1 m ρ) c 2))).trans (V1_invDeg m ρ c)

/-- The raw edge rows and the second layer's right weight and bias are not arrays of the first region: unchanged. -/
theorem W2_src : (W2 m ρ c (Proc.devRef .tc main_v1) : S1600000.Idx → BitVec 32) = srcRaw (ei m c) :=
  (W2_of_ne m ρ c main_v1 (by decide)).trans (W1_src m ρ c)
theorem W2_dst : (W2 m ρ c (Proc.devRef .tc main_v3) : S1600000.Idx → BitVec 32) = dstRaw (ei m c) :=
  (W2_of_ne m ρ c main_v3 (by decide)).trans (W1_dst m ρ c)
theorem W2_w2r : W2 m ρ c (Proc.devRef .tc main_arg7) = m ((c : Thread nD τ).loc main_arg7) :=
  (W2_of_ne m ρ c main_arg7 (by decide)).trans (W1_w2r m ρ c)
theorem W2_b2 : W2 m ρ c (Proc.devRef .tc main_arg6) = m ((c : Thread nD τ).loc main_arg6) :=
  (W2_of_ne m ρ c main_arg6 (by decide)).trans (W1_b2 m ρ c)

/-! ## What the second region is entered with -/

set_option maxHeartbeats 2000000 in
/-- The second aggregate: the projected rows gathered by source and scatter-added by destination. -/
theorem V3_agg : (V3 m ρ c main_v34 : S100000x64.Idx → EReal) = agg2 (projectedOf (agg1 (m ((c : Thread nD τ).loc main_arg0)) (ei m c)) (m ((c : Thread nD τ).loc main_arg0)) (invDegCol (ei m c)) (m ((c : Thread nD τ).loc main_arg2)) (m ((c : Thread nD τ).loc main_arg4)) (b1row (m ((c : Thread nD τ).loc main_arg3))) (m ((c : Thread nD τ).loc main_arg5))) (ei m c) := by
  show StableHlo.after hostOps1 (W2 m ρ c) (Proc.devRef .tc main_v34) = _
  after_results
  rw [W2_projected, W2_src, W2_dst]
  unfold agg2 srcCol dstCol
  rfl

theorem V3_hidden : (V3 m ρ c main_v24_0 : S100000x128.Idx → EReal) = (hiddenOf (agg1 (m ((c : Thread nD τ).loc main_arg0)) (ei m c)) (m ((c : Thread nD τ).loc main_arg0)) (invDegCol (ei m c)) (m ((c : Thread nD τ).loc main_arg2)) (m ((c : Thread nD τ).loc main_arg4)) (b1row (m ((c : Thread nD τ).loc main_arg3)))) := by
  show StableHlo.after hostOps1 (W2 m ρ c) (Proc.devRef .tc main_v24_0) = _
  after_results
  exact W2_hidden m ρ c

theorem V3_invDeg : (V3 m ρ c main_v12 : S100000x1.Idx → EReal) = invDegCol (ei m c) := by
  show StableHlo.after hostOps1 (W2 m ρ c) (Proc.devRef .tc main_v12) = _
  after_results
  exact W2_invDeg m ρ c

theorem V3_w2r : V3 m ρ c main_arg7 = m ((c : Thread nD τ).loc main_arg7) := by
  show StableHlo.after hostOps1 (W2 m ρ c) (Proc.devRef .tc main_arg7) = _
  after_results
  exact W2_w2r m ρ c

theorem V3_bias : (V3 m ρ c main_v35 : S1x64.Idx → EReal) = b2row (m ((c : Thread nD τ).loc main_arg6)) := by
  show StableHlo.after hostOps1 (W2 m ρ c) (Proc.devRef .tc main_v35) = _
  after_results
  rw [W2_b2]
  rfl

/-! ## The result -/

/-- THE RESULT BUFFER after the run, as one term of the arguments: the second region's output function of the
    second aggregate, the hidden array, the inverse-degree column, the right weight and the bias row. -/
theorem result : (W4 m ρ c (Proc.devRef .tc main_v36) : S100000x64.Idx → EReal)
    = outOf (agg2 (projectedOf (agg1 (m ((c : Thread nD τ).loc main_arg0)) (ei m c)) (m ((c : Thread nD τ).loc main_arg0)) (invDegCol (ei m c)) (m ((c : Thread nD τ).loc main_arg2)) (m ((c : Thread nD τ).loc main_arg4)) (b1row (m ((c : Thread nD τ).loc main_arg3))) (m ((c : Thread nD τ).loc main_arg5))) (ei m c)) (hiddenOf (agg1 (m ((c : Thread nD τ).loc main_arg0)) (ei m c)) (m ((c : Thread nD τ).loc main_arg0)) (invDegCol (ei m c)) (m ((c : Thread nD τ).loc main_arg2)) (m ((c : Thread nD τ).loc main_arg4)) (b1row (m ((c : Thread nD τ).loc main_arg3)))) (invDegCol (ei m c)) (m ((c : Thread nD τ).loc main_arg7)) (b2row (m ((c : Thread nD τ).loc main_arg6))) := by
  have h := (W4_arr m ρ c 5).trans (Layer2.final_out (V3 m ρ) c)
  rw [V3_agg, V3_hidden, V3_invDeg, V3_w2r, V3_bias] at h
  exact h

end Cert.KernelIdeal.HostSide
-- ==== Proof.LibERealSums.lean ====
/-
  Sums of extended reals against a factor.

  On the extended reals multiplication does not distribute over addition in general (`⊤ + ⊥` is `⊥`), but it does
  in the two cases a mean aggregation needs: a sum of NON-NEGATIVE terms times any factor, and any sum times a factor
  that is non-negative and not `⊤`. From these: aggregating non-negative rows over a set of edges, scaling by such a
  factor `d` and then contracting with a weight column gives the same number as contracting each row first,
  aggregating, and scaling last.
-/
import Mathlib.Data.EReal.Inv

open scoped BigOperators

namespace Cert.LibERealSums

/-- A sum of non-negative extended reals times any factor is the sum of the products. -/
theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    have hs : ∀ i ∈ s, 0 ≤ f i := fun i hi => hf i (Finset.mem_insert_of_mem hi)
    rw [Finset.sum_insert ha, Finset.sum_insert ha,
      EReal.right_distrib_of_nonneg (hf a (Finset.mem_insert_self a s)) (Finset.sum_nonneg hs), ih hs]

/-- Any sum of extended reals times a non-negative factor other than `⊤` is the sum of the products. -/
theorem sum_mul_of_nonneg_ne_top {ι : Type*} (s : Finset ι) (f : ι → EReal) (c : EReal) (hc : 0 ≤ c) (hc' : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top hc hc', ih]

/-- MEAN AGGREGATION COMMUTES WITH A PROJECTION. For non-negative rows `H e` indexed by the edges `e ∈ s`, a scale
    `d` that is non-negative and not `⊤`, and a weight column `w`: the aggregated and scaled row contracted with
    `w` is the aggregate of the contracted rows, scaled. No finiteness of `H` or of `w` is needed. -/
theorem aggregate_scale_project {E K : Type*} [Fintype K] (s : Finset E) (H : E → K → EReal) (hH : ∀ e k, 0 ≤ H e k)
    (d : EReal) (hd : 0 ≤ d) (hd' : d ≠ ⊤) (w : K → EReal) :
    ∑ k, ((∑ e ∈ s, H e k) * d) * w k = (∑ e ∈ s, ∑ k, H e k * w k) * d := by
  rw [sum_mul_of_nonneg_ne_top s _ d hd hd']
  have h1 : ∀ k, ((∑ e ∈ s, H e k) * d) * w k = ∑ e ∈ s, (H e k * d) * w k := fun k => by
    rw [sum_mul_of_nonneg s (fun e => H e k) (fun e _ => hH e k) d,
      sum_mul_of_nonneg s (fun e => H e k * d) (fun e _ => mul_nonneg (hH e k) hd) (w k)]
  simp only [h1]
  rw [Finset.sum_comm]
  refine Finset.sum_congr rfl fun e _ => ?_
  rw [sum_mul_of_nonneg_ne_top Finset.univ _ d hd hd']
  exact Finset.sum_congr rfl fun k _ => mul_right_comm _ _ _

end Cert.LibERealSums
-- ==== Proof.LibRowOps.lean ====
/-
  Row gather and row scatter-add, read at an index.

  `x[idx]` of a matrix `x : [N, C]` at a vector of `E` row numbers lowers to a gather whose start indices are an
  `[E, 1]` array: row `e` of the result is row `idx[e, 0]` of `x`, the row number read as a signed integer and clamped
  into `[0, N - 1]`. A segment sum of `E` rows into `N` buckets lowers to a scatter with an `add` body over the same
  kind of index array: element `(n, k)` of the result is the operand's plus the sum of `upd[e, k]` over the rows `e`
  whose row number, read signed and NOT clamped, is exactly `n` (a row number outside `[0, N)` contributes nothing).
  Both are stated for any extents, over dimension numbers given as a generic record, and for the scatter at the
  exact instance, where the accumulation is a finite sum of extended reals.
-/
import Idealize.ShloMosaic.PureOps.Ideal
import Idealize.ShloMosaic.Lib.ValueIdx

noncomputable section

open scoped BigOperators

namespace Cert.LibRowOps

open Idealize.ShloMosaic Idealize.ShloMosaic.ValueIdx

/-- The position `[e, 0]` of the `[E, 1]` array of row numbers that row `e` of an `[E, C]` array reads. -/
abbrev rowPos {E C : Nat} (y : (⟨2, ![E, C]⟩ : Shape).Idx) : (⟨2, ![E, 1]⟩ : Shape).Idx :=
  fun a => match a with | ⟨0, _⟩ => ⟨(y 0).val, idx2_lt0 y⟩ | ⟨1, _⟩ => ⟨0, Nat.one_pos⟩

/-! ## The gather -/

section Gather
variable {α : Type}

/-- The dimension numbers of a row gather: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, k)`: the operand at row `idx[e, 0]`, read signed and clamped into `[0, N - 1]`, column `k`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N E C wf) x idx y
      = x (ix2 ⟨min (idx (rowPos y)).toInt.toNat (N - 1), by omega⟩ (y 1)) := by
  unfold Host.gather
  congr 1
  funext a
  refine Fin.ext ?_
  match a with
  | ⟨0, _⟩ =>
    show (rowGatherDims N E C wf).start y idx 0 + (rowGatherDims N E C wf).batchCoord y 0
      + (rowGatherDims N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx y ⟨List.idxOf (0 : Fin 2) (rowGatherDims N E C wf).startIndexMap,
        List.idxOf_lt_length_iff.2 (List.mem_singleton.mpr rfl)⟩ = rowPos y := by
      funext b; refine Fin.ext ?_
      match b with
      | ⟨0, _⟩ => rfl
      | ⟨1, _⟩ => rfl
    rw [hsi]
    rfl
  | ⟨1, _⟩ =>
    show (rowGatherDims N E C wf).start y idx 1 + (rowGatherDims N E C wf).batchCoord y 1
      + (rowGatherDims N E C wf).offCoord y 1 = (y 1).val
    rw [GatherDims.batchCoord_eq_zero _ _ _ List.not_mem_nil]
    have hs : (rowGatherDims N E C wf).start y idx 1 = 0 := by
      unfold GatherDims.start
      rw [dif_neg (show (1 : Fin 2) ∉ ([0] : List (Fin 2)) by decide)]
    have ho : (rowGatherDims N E C wf).offCoord y 1 = (y 1).val := by
      unfold GatherDims.offCoord
      rw [dif_pos ((GatherDims.mem_sKept _ _).mpr ⟨(show (1 : Fin 2) ∉ ([0] : List (Fin 2)) by decide), List.not_mem_nil⟩)]
      rfl
    rw [hs, ho]; omega

end Gather

/-! ## The scatter-add -/

section Scatter

/-- The dimension numbers of a row scatter: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis an update starts at its row number, read signed. -/
theorem rowScatter_start0 (j : (⟨2, ![E, C]⟩ : Shape).Idx) (idx : IVec ⟨2, ![E, 1]⟩ w) :
    (rowScatterDims N E C wf).start j idx 0 = (idx (rowPos j)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = rowPos j := by
    funext b; refine Fin.ext ?_
    match b with
    | ⟨0, _⟩ => rfl
    | ⟨1, _⟩ => rfl
  rw [hsi]

/-- On the column axis an update starts at zero. -/
theorem rowScatter_start1 (j : (⟨2, ![E, C]⟩ : Shape).Idx) (idx : IVec ⟨2, ![E, 1]⟩ w) :
    (rowScatterDims N E C wf).start j idx 1 = 0 := by
  unfold ScatterDims.start
  rw [dif_neg (show (1 : Fin 2) ∉ ([0] : List (Fin 2)) by decide)]

/-- The row axis is inserted: no window coordinate. -/
theorem rowScatter_window0 (j : (⟨2, ![E, C]⟩ : Shape).Idx) : (rowScatterDims N E C wf).window j 0 = 0 := by
  unfold ScatterDims.window
  rw [dif_neg (by simp [ScatterDims.sKept, Shape.kept])]

/-- The column axis carries the update's column. -/
theorem rowScatter_window1 (j : (⟨2, ![E, C]⟩ : Shape).Idx) : (rowScatterDims N E C wf).window j 1 = (j 1).val := by
  unfold ScatterDims.window
  rw [dif_pos (by simp [ScatterDims.sKept, Shape.kept])]
  rfl

/-- WHERE AN UPDATE LANDS: update `(e, c)` lands on `(n, k)` exactly when row `e`'s number, read signed, is `n`
    and `c = k`. -/
theorem rowScatter_resultIdx_eq_some (j : (⟨2, ![E, C]⟩ : Shape).Idx) (idx : IVec ⟨2, ![E, 1]⟩ w)
    (i : (⟨2, ![N, C]⟩ : Shape).Idx) :
    (rowScatterDims N E C wf).resultIdx? j idx = some i
      ↔ (idx (rowPos j)).toInt = ((i 0).val : Int) ∧ (j 1).val = (i 1).val := by
  have h0 : (rowScatterDims N E C wf).start j idx 0 + ((rowScatterDims N E C wf).window j 0 : Int) = (idx (rowPos j)).toInt := by
    rw [rowScatter_start0, rowScatter_window0]; simp
  have h1 : (rowScatterDims N E C wf).start j idx 1 + ((rowScatterDims N E C wf).window j 1 : Int) = ((j 1).val : Int) := by
    rw [rowScatter_start1, rowScatter_window1]; simp
  have hi0 := idx2_lt0 i
  have hi1 := idx2_lt1 i
  have hj1 := idx2_lt1 j
  unfold ScatterDims.resultIdx?
  constructor
  · intro h
    split at h
    · rename_i hb
      have e := Option.some.inj h
      have e0 : ((rowScatterDims N E C wf).start j idx 0 + ((rowScatterDims N E C wf).window j 0 : Int)).toNat = (i 0).val :=
        congrArg Fin.val (congrFun e 0)
      have e1 : ((rowScatterDims N E C wf).start j idx 1 + ((rowScatterDims N E C wf).window j 1 : Int)).toNat = (i 1).val :=
        congrArg Fin.val (congrFun e 1)
      have b0 := (hb 0).1
      rw [h0] at e0 b0
      rw [h1] at e1
      constructor <;> omega
    · exact absurd h (by simp)
  · rintro ⟨e0, e1⟩
    have hb : ∀ a, 0 ≤ (rowScatterDims N E C wf).start j idx a + ((rowScatterDims N E C wf).window j a : Int)
        ∧ (rowScatterDims N E C wf).start j idx a + ((rowScatterDims N E C wf).window j a : Int) < ((⟨2, ![N, C]⟩ : Shape).size a : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [h0, e0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [h1]; omega
    rw [dif_pos hb]
    congr 1
    funext a
    refine Fin.ext ?_
    match a with
    | ⟨0, _⟩ =>
      show ((rowScatterDims N E C wf).start j idx 0 + ((rowScatterDims N E C wf).window j 0 : Int)).toNat = (i 0).val
      rw [h0, e0]; simp
    | ⟨1, _⟩ =>
      show ((rowScatterDims N E C wf).start j idx 1 + ((rowScatterDims N E C wf).window j 1 : Int)).toNat = (i 1).val
      rw [h1]; omega

/-- The row-number position of update `(e, c)` is `[e, 0]`, whatever the column. -/
theorem rowPos_ix2 (e : Fin E) (c : Fin C) : rowPos (ix2 e c) = ix2 e (0 : Fin 1) := by
  funext a
  match a with
  | ⟨0, _⟩ => rfl
  | ⟨1, _⟩ => rfl

/-- THE ROW SCATTER-ADD AT `(n, k)`, exactly: the operand's element plus the sum of `upd[e, k]` over the rows `e`
    whose number, read signed, is `n`. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k)
        + ∑ e ∈ Finset.univ.filter (fun e : Fin E => (idx (ix2 e (0 : Fin 1))).toInt = (n.val : Int)), upd (ix2 e k) := by
  unfold Ideal.hostScatterAdd
  congr 1
  rw [Finset.sum_filter, sum_idx2, Finset.sum_filter]
  refine Finset.sum_congr rfl fun e _ => ?_
  have key : ∀ c : Fin C, (rowScatterDims N E C wf).resultIdx? (ix2 e c) idx = some (ix2 n k)
      ↔ (idx (ix2 e (0 : Fin 1))).toInt = (n.val : Int) ∧ c.val = k.val := fun c => by
    rw [rowScatter_resultIdx_eq_some, rowPos_ix2]
    exact Iff.rfl
  by_cases hQ : (idx (ix2 e (0 : Fin 1))).toInt = (n.val : Int)
  · rw [if_pos hQ, Finset.sum_eq_single k]
    · rw [if_pos ((key k).mpr ⟨hQ, rfl⟩)]
    · intro c _ hc
      rw [if_neg fun h => hc (Fin.ext ((key c).mp h).2)]
    · intro h; exact absurd (Finset.mem_univ k) h
  · rw [if_neg hQ]
    exact Finset.sum_eq_zero fun c _ => if_neg fun h => hQ ((key c).mp h).1

end Scatter

/-! ## The two reads in the form a certificate uses -/

/-- The row of an `N`-row matrix that row number `idx[e, 0]` names once read signed and clamped into `[0, N - 1]`. -/
def clampedRow {N E w : Nat} (hN : 0 < N) (idx : IVec ⟨2, ![E, 1]⟩ w) (e : Fin E) : Fin N :=
  ⟨min (idx (ix2 e (0 : Fin 1))).toInt.toNat (N - 1), by omega⟩

/-- The rows `e` whose number `idx[e, 0]`, read signed and not clamped, is exactly `n`. -/
def rowsInto {N E w : Nat} (idx : IVec ⟨2, ![E, 1]⟩ w) (n : Fin N) : Finset (Fin E) :=
  Finset.univ.filter fun e : Fin E => (idx (ix2 e (0 : Fin 1))).toInt = (n.val : Int)

/-- A gather whose dimension numbers are a row gather's, at `(e, k)`: the operand at the clamped row, column `k`. -/
theorem gather_rows {α : Type} {N E C w : Nat} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (k : Fin C) :
    Host.gather d x idx (ix2 e k) = x (ix2 (clampedRow hN idx e) k) := by
  subst hd
  rw [rowGather_apply hN]
  refine congrArg x ?_
  funext a
  apply Fin.ext
  match a with
  | ⟨0, _⟩ =>
    show min (idx (rowPos (ix2 e k))).toInt.toNat (N - 1) = min (idx (ix2 e (0 : Fin 1))).toInt.toNat (N - 1)
    rw [rowPos_ix2]
  | ⟨1, _⟩ => rfl

/-- A float scatter-add whose dimension numbers are a row scatter's, at the exact instance and at `(n, k)`: the
    operand's element plus the sum of `upd[e, k]` over the rows into `n`. -/
theorem scatterAdd_rows {N E C w : Nat} {φ : FTy}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (x : (⟨2, ![N, C]⟩ : Shape).Idx → EReal) (idx : IVec ⟨2, ![E, 1]⟩ w) (upd : (⟨2, ![E, C]⟩ : Shape).Idx → EReal)
    (n : Fin N) (k : Fin C) :
    Host.scatterAdd (F := Ideal) (φ := φ) d x idx upd (ix2 n k) = x (ix2 n k) + ∑ e ∈ rowsInto idx n, upd (ix2 e k) := by
  subst hd
  exact rowScatterAdd_apply wf x idx upd n k

end Cert.LibRowOps
-- ==== Proof.Spec.lean ====
/-
  Two-layer mean-aggregation graph convolution, as functions of a node and a feature.

  Edge `e` sends the features of its (clamped) source row `rowOf sc e` to the destination `n` whose number is the
  signed value of `dc[e, 0]`; `edgesInto dc n` is the set of edges arriving at `n`, and `d n` the node's inverse
  in-degree. One layer is `(Σ_{e → n} h[src e]) · d n` contracted with a left weight, plus `h[n]` contracted with a
  right weight, plus a bias.

  `hidden` is the first layer followed by `max (·) 0`. The second layer is written twice: `outRef` aggregates the hidden
  rows, scales by `d n` and THEN contracts with the left weight; `outKer` contracts every hidden row with the left weight
  FIRST, aggregates the projected rows and scales last. The two agree (`outKer_eq_outRef`) because the hidden rows are
  non-negative — a sum of non-negative extended reals distributes over any factor — and `d n` is non-negative and not
  `⊤` — such a factor distributes over any sum. No finiteness of the features or of the weights is used.
-/
import Idealize.ShloMosaic.PureOps.Ideal
import Idealize.ShloMosaic.PureOps.Ideal.Laws
import Idealize.ShloMosaic.Lib.ValueIdx
import proofs.«136426_j72911364817007_2_alg».proof.Proof.LibERealSums
import proofs.«136426_j72911364817007_2_alg».proof.Proof.LibRowOps

noncomputable section

open scoped BigOperators

namespace Cert.Sage

open Idealize.ShloMosaic Idealize.ShloMosaic.ValueIdx

/-- A column of `1600000` row numbers, one per edge. -/
abbrev Rows : Type := IVec ⟨2, ![1600000, 1]⟩ 32

/-- The extended real the f32 zero word denotes. -/
abbrev z : EReal := Ideal.ofBits .f32 0x00000000#32

theorem z_eq : z = 0 := Ideal.ofBits_zero_f32

/-- The row of the feature matrix edge `e` reads: its source number, read signed and clamped into `[0, 99999]`. -/
abbrev rowOf (sc : Rows) (e : Fin 1600000) : Fin 100000 :=
  Cert.LibRowOps.clampedRow (N := 100000) (by decide) sc e

/-- The edges whose destination number, read signed, is `n`. -/
abbrev edgesInto (dc : Rows) (n : Fin 100000) : Finset (Fin 1600000) :=
  Cert.LibRowOps.rowsInto (N := 100000) dc n

/-- The first layer's output at node `n`, feature `j`. -/
def hidden (sc dc : Rows) (d : Fin 100000 → EReal) (x : (⟨2, ![100000, 128]⟩ : Shape).Idx → EReal)
    (Wl Wr : (⟨2, ![128, 128]⟩ : Shape).Idx → EReal) (b : Fin 128 → EReal) (n : Fin 100000) (j : Fin 128) : EReal :=
  max (((∑ k : Fin 128, ((z + ∑ e ∈ edgesInto dc n, x (ix2 (rowOf sc e) k)) * d n) * Wl (ix2 k j))
    + ∑ k : Fin 128, x (ix2 n k) * Wr (ix2 k j)) + b j) z

theorem hidden_nonneg (sc dc : Rows) (d : Fin 100000 → EReal) (x : (⟨2, ![100000, 128]⟩ : Shape).Idx → EReal)
    (Wl Wr : (⟨2, ![128, 128]⟩ : Shape).Idx → EReal) (b : Fin 128 → EReal) (n : Fin 100000) (j : Fin 128) :
    0 ≤ hidden sc dc d x Wl Wr b n j := by
  unfold hidden
  rw [z_eq]
  exact le_max_right _ _

/-- The second layer, aggregating first: the reference's order. -/
def outRef (sc dc : Rows) (d : Fin 100000 → EReal) (h : Fin 100000 → Fin 128 → EReal)
    (Wl Wr : (⟨2, ![128, 64]⟩ : Shape).Idx → EReal) (b : Fin 64 → EReal) (n : Fin 100000) (j : Fin 64) : EReal :=
  ((∑ k : Fin 128, ((z + ∑ e ∈ edgesInto dc n, h (rowOf sc e) k) * d n) * Wl (ix2 k j))
    + ∑ k : Fin 128, h n k * Wr (ix2 k j)) + b j

/-- The second layer, projecting first: the kernel's order. -/
def outKer (sc dc : Rows) (d : Fin 100000 → EReal) (h : Fin 100000 → Fin 128 → EReal)
    (Wl Wr : (⟨2, ![128, 64]⟩ : Shape).Idx → EReal) (b : Fin 64 → EReal) (n : Fin 100000) (j : Fin 64) : EReal :=
  ((∑ k : Fin 128, h n k * Wr (ix2 k j))
    + (z + ∑ e ∈ edgesInto dc n, ∑ k : Fin 128, h (rowOf sc e) k * Wl (ix2 k j)) * d n) + b j

/-- PROJECTING BEFORE AGGREGATING CHANGES NOTHING, for non-negative hidden rows and a scale that is non-negative and
    not `⊤`. -/
theorem outKer_eq_outRef (sc dc : Rows) (d : Fin 100000 → EReal) (h : Fin 100000 → Fin 128 → EReal)
    (hh : ∀ n k, 0 ≤ h n k) (hd : ∀ n, 0 ≤ d n) (hd' : ∀ n, d n ≠ ⊤)
    (Wl Wr : (⟨2, ![128, 64]⟩ : Shape).Idx → EReal) (b : Fin 64 → EReal) (n : Fin 100000) (j : Fin 64) :
    outKer sc dc d h Wl Wr b n j = outRef sc dc d h Wl Wr b n j := by
  unfold outKer outRef
  rw [z_eq]
  simp only [zero_add]
  rw [Cert.LibERealSums.aggregate_scale_project (edgesInto dc n) (fun e k => h (rowOf sc e) k) (fun e k => hh _ _)
    (d n) (hd n) (hd' n) (fun k => Wl (ix2 k j))]
  rw [add_comm (∑ k : Fin 128, h n k * Wr (ix2 k j))]

/-! ## The inverse in-degree -/

/-- `1 / max (deg, 1)` on the extended reals is non-negative and never `⊤`, whatever `deg` is: the maximum is at
    least `1`, so it is not zero, and the inverse of a non-negative extended real is a non-negative real or `0`. -/
theorem inv_max_one (deg : EReal) : 0 ≤ Ideal.div 1 (max deg 1) ∧ Ideal.div 1 (max deg 1) ≠ ⊤ := by
  have h1 : (1 : EReal) ≤ max deg 1 := le_max_right _ _
  have hpos : (0 : EReal) < max deg 1 := lt_of_lt_of_le zero_lt_one h1
  unfold Ideal.div
  rw [if_neg (ne_of_gt hpos), one_mul]
  exact ⟨EReal.inv_nonneg_of_nonneg hpos.le, (EReal.inv_lt_top _).ne⟩

/-- The f32 word of `1.0` denotes `1`. -/
theorem ofBits_one : Ideal.ofBits .f32 0x3F800000#32 = 1 := by
  simp [Ideal.ofBits, Ideal.ieee, -EReal.coe_mul]; norm_num

end Cert.Sage
-- ==== Proof.KernelFormula.lean ====
/-
  The kernel's output, node by node.

  Composing what the host stretches compute with what the two regions write: the first aggregate at `(n, k)` is the
  sum over the edges into `n` of the feature `k` of their source rows; the hidden array is the first layer of the
  specification; the projected array is its rows contracted with the second left weight; the second aggregate sums
  those projected rows over the edges into `n`; and the output is the specification's second layer in the
  project-first order.
-/
import proofs.«136426_j72911364817007_2_alg».proof.Proof.Spec
import proofs.«136426_j72911364817007_2_alg».proof.Proof.LibRowOps
import proofs.«136426_j72911364817007_2_alg».proof.Proof.KernelHost

set_option maxRecDepth 16384

noncomputable section

open scoped BigOperators

namespace Cert.KernelIdeal.Formula

open Cert.KernelIdeal Cert.KernelIdeal.Gen Idealize.ShloMosaic Idealize.ShloMosaic.ValueIdx
open Cert.KernelIdeal.HostSide Cert.KernelIdeal.Layer1 Cert.KernelIdeal.Layer2

variable (x : S100000x128.Idx → EReal) (ei : S2x1600000.Idx → BitVec 32)

/-- The inverse-degree column at row `n` is the inverse degree of node `n`. -/
theorem invDegCol_apply (n : Fin 100000) : invDegCol ei (ix2 n (0 : Fin 1)) = invDeg ei (ix1 n) := by
  unfold invDegCol
  exact shapeCast_apply _ shapeCasts_S100000_S100000x1 (ix2 n (0 : Fin 1)) (ix1 n)
    (by rewrite [Shape.rowMajor_val_two, Shape.rowMajor_val_one]; show n.val = n.val * 1 + 0; omega)

/-- The first bias row at column `k` is the bias at `k`. -/
theorem b1row_apply (b : S128.Idx → EReal) (k : Fin 128) : b1row b (ix2 (0 : Fin 1) k) = b (ix1 k) := by
  unfold b1row
  exact shapeCast_apply _ shapeCasts_S128_S1x128 (ix2 (0 : Fin 1) k) (ix1 k)
    (by rewrite [Shape.rowMajor_val_two, Shape.rowMajor_val_one]; show k.val = 0 * 128 + k.val; omega)

/-- The second bias row at column `j` is the bias at `j`. -/
theorem b2row_apply (b : S64.Idx → EReal) (j : Fin 64) : b2row b (ix2 (0 : Fin 1) j) = b (ix1 j) := by
  unfold b2row
  exact shapeCast_apply _ shapeCasts_S64_S1x64 (ix2 (0 : Fin 1) j) (ix1 j)
    (by rewrite [Shape.rowMajor_val_two, Shape.rowMajor_val_one]; show j.val = 0 * 64 + j.val; omega)

/-- THE FIRST AGGREGATE at `(n, k)`: zero plus the sum, over the edges into `n`, of feature `k` of the source row. -/
theorem agg1_apply (n : Fin 100000) (k : Fin 128) :
    agg1 x ei (ix2 n k) = Sage.z + ∑ e ∈ Sage.edgesInto (dstCol ei) n, x (ix2 (Sage.rowOf (srcCol ei) e) k) := by
  unfold agg1
  rw [Cert.LibRowOps.scatterAdd_rows scatter_S100000x128_S1600000x1_S1600000x128_1_0_0_1_wf scatter_S100000x128_S1600000x1_S1600000x128_1_0_0_1 rfl]
  refine congrArg₂ (· + ·) rfl (Finset.sum_congr (by with_reducible rfl) fun e _ => ?_)
  exact Cert.LibRowOps.gather_rows (by decide) gather_S100000x128_S1600000x1_S1600000x128_1_0_n_n_0_1_1128_wf gather_S100000x128_S1600000x1_S1600000x128_1_0_n_n_0_1_1128 rfl x (srcCol ei) e k

/-- THE SECOND AGGREGATE at `(n, j)`, of any array `pr` of 64-wide rows. -/
theorem agg2_apply (pr : S100000x64.Idx → EReal) (n : Fin 100000) (j : Fin 64) :
    agg2 pr ei (ix2 n j) = Sage.z + ∑ e ∈ Sage.edgesInto (dstCol ei) n, pr (ix2 (Sage.rowOf (srcCol ei) e) j) := by
  unfold agg2
  rw [Cert.LibRowOps.scatterAdd_rows scatter_S100000x64_S1600000x1_S1600000x64_1_0_0_1_wf scatter_S100000x64_S1600000x1_S1600000x64_1_0_0_1 rfl]
  refine congrArg₂ (· + ·) rfl (Finset.sum_congr (by with_reducible rfl) fun e _ => ?_)
  exact Cert.LibRowOps.gather_rows (by decide) gather_S100000x64_S1600000x1_S1600000x64_1_0_n_n_0_1_164_wf gather_S100000x64_S1600000x1_S1600000x64_1_0_n_n_0_1_164 rfl pr (srcCol ei) e j

variable (wl wr : S128x128.Idx → EReal) (b1 : S128.Idx → EReal) (w2l w2r : S128x64.Idx → EReal) (b2 : S64.Idx → EReal)

/-- The hidden array is the specification's first layer. -/
theorem hiddenAt_eq (n : Fin 100000) (k : Fin 128) :
    hiddenAt (agg1 x ei) x (invDegCol ei) wl wr (b1row b1) n k
      = Sage.hidden (srcCol ei) (dstCol ei) (fun n => invDeg ei (ix1 n)) x wl wr (fun k => b1 (ix1 k)) n k := by
  unfold hiddenAt Sage.hidden
  simp only [agg1_apply, invDegCol_apply, b1row_apply]

/-- THE KERNEL'S OUTPUT at node `n`, class `j`, is the specification's second layer, projecting first. -/
theorem out_eq (n : Fin 100000) (j : Fin 64) :
    outOf (agg2 (projectedOf (agg1 x ei) x (invDegCol ei) wl wr (b1row b1) w2l) ei)
        (hiddenOf (agg1 x ei) x (invDegCol ei) wl wr (b1row b1)) (invDegCol ei) w2r (b2row b2) (ix2 n j)
      = Sage.outKer (srcCol ei) (dstCol ei) (fun n => invDeg ei (ix1 n))
          (Sage.hidden (srcCol ei) (dstCol ei) (fun n => invDeg ei (ix1 n)) x wl wr (fun k => b1 (ix1 k)))
          w2l w2r (fun j => b2 (ix1 j)) n j := by
  show outAt _ _ _ _ _ n j = _
  unfold outAt Sage.outKer
  rw [agg2_apply, invDegCol_apply, b2row_apply]
  show ((∑ k : Fin 128, hiddenAt (agg1 x ei) x (invDegCol ei) wl wr (b1row b1) n k * w2r (ix2 k j))
      + (Sage.z + ∑ e ∈ Sage.edgesInto (dstCol ei) n,
          ∑ k : Fin 128, hiddenAt (agg1 x ei) x (invDegCol ei) wl wr (b1row b1) (Sage.rowOf (srcCol ei) e) k * w2l (ix2 k j))
        * invDeg ei (ix1 n)) + b2 (ix1 j) = _
  simp only [hiddenAt_eq]

end Cert.KernelIdeal.Formula
-- ==== Proof.KernelDegree.lean ====
/-
  The inverse in-degree is a non-negative extended real other than `⊤`.

  At node `n` it is `1 / max (deg n, 1)`, the two ones being the f32 word of `1.0` broadcast: whatever the scatter-add
  of ones leaves as `deg n`, the maximum is at least `1`, so the quotient is the inverse of a positive extended real.
-/
import proofs.«136426_j72911364817007_2_alg».proof.Proof.KernelHost
import proofs.«136426_j72911364817007_2_alg».proof.Proof.Spec
import Idealize.ShloMosaic.Lib.Pipeline.Value

noncomputable section

namespace Cert.KernelIdeal.HostSide

open Cert.KernelIdeal Cert.KernelIdeal.Gen Idealize.ShloMosaic Idealize.ShloMosaic.ValueIdx

/-- The host's quotient at an index is the exact instance's division of the elements. -/
theorem hostDivf_apply {s : Shape} (a b : FVec Ideal s .f32) (i : s.Idx) : Host.divf a b i = Ideal.div (a i) (b i) := rfl

/-- The broadcast of the word `1.0` reads `1` everywhere. -/
theorem ones_apply (i : S100000.Idx) :
    broadcastInDim S100000 ![] bcast_S_S100000 (constant (F := Ideal) S_ .f32 0x3F800000#32) i = (1 : EReal) := by
  rw [broadcastInDim_apply _ bcast_S_S100000 _ i ix0 (fun a => a.elim0), constant_apply]
  with_reducible exact Cert.Sage.ofBits_one

/-- The inverse degree of node `n` is non-negative and not `⊤`. -/
theorem invDeg_bounds (ei : S2x1600000.Idx → BitVec 32) (n : Fin 100000) :
    0 ≤ invDeg ei (ix1 n) ∧ invDeg ei (ix1 n) ≠ ⊤ := by
  unfold invDeg
  rw [hostDivf_apply, maximumf_apply, ones_apply]
  with_reducible exact Cert.Sage.inv_max_one _

end Cert.KernelIdeal.HostSide
-- ==== Proof.RefFormula.lean ====
/-
  The reference's output, node by node.

  The reference's @main read one operation at a time: the first aggregate at `(n, k)` is the sum over the edges into
  `n` of feature `k` of their source rows; the first layer is the specification's `hidden`; the second aggregate sums
  the HIDDEN rows over the edges into `n`; scaled by the inverse degree and contracted with the left weight, plus the
  node's own row contracted with the right weight, plus the bias, it is the specification's second layer in the
  aggregate-first order.
-/
import proofs.«136426_j72911364817007_2_alg».proof.Proof.Gen.ReferenceIdeal.Read
import proofs.«136426_j72911364817007_2_alg».proof.Proof.Spec
import proofs.«136426_j72911364817007_2_alg».proof.Proof.LibRowOps

set_option maxRecDepth 16384

noncomputable section

open scoped BigOperators

namespace Cert.ReferenceIdeal.Formula

open Cert.ReferenceIdeal Cert.ReferenceIdeal.Gen Cert.ReferenceIdeal.Read Idealize.ShloMosaic Idealize.ShloMosaic.ValueIdx

/-! ## The composed index functions, by coordinates -/

theorem l25 (n : Fin 100000) (q k : Fin 128) : lidx_main_v25 (ix2 n q) k = ix2 n k := by
  funext a
  match a with
  | ⟨0, _⟩ => rfl
  | ⟨1, _⟩ => rfl

theorem r25 (n : Fin 100000) (q k : Fin 128) : ridx_main_v25 (ix2 n q) k = ix2 k q := by
  funext a
  match a with
  | ⟨0, _⟩ => rfl
  | ⟨1, _⟩ => rfl

theorem l26 (n : Fin 100000) (q k : Fin 128) : lidx_main_v26 (ix2 n q) k = ix2 n k := by
  funext a
  match a with
  | ⟨0, _⟩ => rfl
  | ⟨1, _⟩ => rfl

theorem r26 (n : Fin 100000) (q k : Fin 128) : ridx_main_v26 (ix2 n q) k = ix2 k q := by
  funext a
  match a with
  | ⟨0, _⟩ => rfl
  | ⟨1, _⟩ => rfl

theorem l45 (n : Fin 100000) (j : Fin 64) (k : Fin 128) : lidx_main_v45 (ix2 n j) k = ix2 n k := by
  funext a
  match a with
  | ⟨0, _⟩ => rfl
  | ⟨1, _⟩ => rfl

theorem r45 (n : Fin 100000) (j : Fin 64) (k : Fin 128) : ridx_main_v45 (ix2 n j) k = ix2 k j := by
  funext a
  match a with
  | ⟨0, _⟩ => rfl
  | ⟨1, _⟩ => rfl

theorem l46 (n : Fin 100000) (j : Fin 64) (k : Fin 128) : lidx_main_v46 (ix2 n j) k = ix2 n k := by
  funext a
  match a with
  | ⟨0, _⟩ => rfl
  | ⟨1, _⟩ => rfl

theorem r46 (n : Fin 100000) (j : Fin 64) (k : Fin 128) : ridx_main_v46 (ix2 n j) k = ix2 k j := by
  funext a
  match a with
  | ⟨0, _⟩ => rfl
  | ⟨1, _⟩ => rfl

theorem i23 (n : Fin 100000) (k : Fin 128) : idx_main_v23 (ix2 n k) = ix2 n (0 : Fin 1) := by
  funext a
  match a with
  | ⟨0, _⟩ => rfl
  | ⟨1, _⟩ => rfl

theorem i22 (n : Fin 100000) : idx_main_v22 (ix2 n (0 : Fin 1)) = ix1 n := by
  funext a
  match a with
  | ⟨0, _⟩ => rfl

theorem i43 (n : Fin 100000) (k : Fin 128) : idx_main_v43 (ix2 n k) = ix2 n (0 : Fin 1) := by
  funext a
  match a with
  | ⟨0, _⟩ => rfl
  | ⟨1, _⟩ => rfl

theorem i42 (n : Fin 100000) : idx_main_v42 (ix2 n (0 : Fin 1)) = ix1 n := by
  funext a
  match a with
  | ⟨0, _⟩ => rfl

theorem i29 (n : Fin 100000) (q : Fin 128) : idx_main_v29 (ix2 n q) = ix2 (0 : Fin 1) q := by
  funext a
  match a with
  | ⟨0, _⟩ => rfl
  | ⟨1, _⟩ => rfl

theorem i28 (q : Fin 128) : idx_main_v28 (ix2 (0 : Fin 1) q) = ix1 q := by
  funext a
  match a with
  | ⟨0, _⟩ => rfl

theorem i49 (n : Fin 100000) (j : Fin 64) : idx_main_v49 (ix2 n j) = ix2 (0 : Fin 1) j := by
  funext a
  match a with
  | ⟨0, _⟩ => rfl
  | ⟨1, _⟩ => rfl

theorem i48 (j : Fin 64) : idx_main_v48 (ix2 (0 : Fin 1) j) = ix1 j := by
  funext a
  match a with
  | ⟨0, _⟩ => rfl

variable (x0 : S100000x128.Idx → EReal) (x1 : S2x1600000.Idx → BitVec 32) (x2 : S128x128.Idx → EReal) (x3 : S128.Idx → EReal)
  (x4 : S128x128.Idx → EReal) (x5 : S128x64.Idx → EReal) (x6 : S64.Idx → EReal) (x7 : S128x64.Idx → EReal)

/-- The source column, the destination column and the inverse degree the reference computes. -/
abbrev sc : Cert.Sage.Rows := val_main_v17 (F := Ideal) x1
abbrev dc : Cert.Sage.Rows := val_main_v20 (F := Ideal) x1
abbrev dg : Fin 100000 → EReal := fun n => val_main_v11 (F := Ideal) x1 (ix1 n)

/-- The second layer's source and destination columns are the first layer's. -/
theorem sc2_eq : val_main_v37 (F := Ideal) x1 = sc x1 := rfl
theorem dc2_eq : val_main_v40 (F := Ideal) x1 = dc x1 := rfl

/-! ## The first layer -/

/-- THE FIRST AGGREGATE at `(n, k)`. -/
theorem agg1_apply (n : Fin 100000) (k : Fin 128) :
    val_main_v21 (F := Ideal) x0 x1 (ix2 n k)
      = Cert.Sage.z + ∑ e ∈ Cert.Sage.edgesInto (dc x1) n, x0 (ix2 (Cert.Sage.rowOf (sc x1) e) k) := by
  unfold val_main_v21 val_main_v18
  rw [Cert.LibRowOps.scatterAdd_rows scatter_S100000x128_S1600000x1_S1600000x128_1_0_0_1_wf scatter_S100000x128_S1600000x1_S1600000x128_1_0_0_1 rfl]
  refine congrArg₂ (· + ·) rfl (Finset.sum_congr (by with_reducible rfl) fun e _ => ?_)
  exact Cert.LibRowOps.gather_rows (by decide) gather_S100000x128_S1600000x1_S1600000x128_1_0_n_n_0_1_1128_wf gather_S100000x128_S1600000x1_S1600000x128_1_0_n_n_0_1_1128 rfl x0 (sc x1) e k

/-- The broadcast inverse degree at `(n, k)` is node `n`'s. -/
theorem dg1_apply (n : Fin 100000) (k : Fin 128) : val_main_v23 (F := Ideal) x1 (ix2 n k) = dg x1 n := by
  rw [val_main_v23_apply, i23, val_main_v22_apply, i22]

/-- The broadcast first bias at `(n, q)` is the bias at `q`. -/
theorem b1_apply (n : Fin 100000) (q : Fin 128) : val_main_v29 (F := Ideal) x3 (ix2 n q) = x3 (ix1 q) := by
  rw [val_main_v29_apply, i29, val_main_v28_apply, i28]

/-- THE HIDDEN ARRAY is the specification's first layer. -/
theorem hidden_eq (n : Fin 100000) (q : Fin 128) :
    val_main_v31 (F := Ideal) x0 x1 x2 x3 x4 (ix2 n q)
      = Cert.Sage.hidden (sc x1) (dc x1) (dg x1) x0 x2 x4 (fun k => x3 (ix1 k)) n q := by
  rw [val_main_v31_apply, val_main_v30_apply, val_main_v27_apply, val_main_v25_apply, val_main_v26_apply, b1_apply,
    val_main_call0_v0_apply, val_main_call0_cst_apply]
  have h1 : ∀ k : Fin 128, val_main_v24 (F := Ideal) x0 x1 (lidx_main_v25 (ix2 n q) k) * x2 (ridx_main_v25 (ix2 n q) k)
      = ((Cert.Sage.z + ∑ e ∈ Cert.Sage.edgesInto (dc x1) n, x0 (ix2 (Cert.Sage.rowOf (sc x1) e) k)) * dg x1 n) * x2 (ix2 k q) :=
    fun k => by rw [l25, r25, val_main_v24_apply, agg1_apply, dg1_apply]; rfl
  have h2 : ∀ k : Fin 128, x0 (lidx_main_v26 (ix2 n q) k) * x4 (ridx_main_v26 (ix2 n q) k) = x0 (ix2 n k) * x4 (ix2 k q) :=
    fun k => by rw [l26, r26]
  rw [Finset.sum_congr rfl (fun k _ => h1 k), Finset.sum_congr rfl (fun k _ => h2 k)]
  rfl

/-! ## The second layer -/

/-- THE SECOND AGGREGATE at `(n, k)`: the hidden rows summed over the edges into `n`. -/
theorem agg2_apply (n : Fin 100000) (k : Fin 128) :
    val_main_v41 (F := Ideal) x0 x1 x2 x3 x4 (ix2 n k)
      = Cert.Sage.z + ∑ e ∈ Cert.Sage.edgesInto (dc x1) n,
          Cert.Sage.hidden (sc x1) (dc x1) (dg x1) x0 x2 x4 (fun k => x3 (ix1 k)) (Cert.Sage.rowOf (sc x1) e) k := by
  unfold val_main_v41 val_main_v38
  rw [sc2_eq, dc2_eq, Cert.LibRowOps.scatterAdd_rows scatter_S100000x128_S1600000x1_S1600000x128_1_0_0_1_wf scatter_S100000x128_S1600000x1_S1600000x128_1_0_0_1 rfl]
  refine congrArg₂ (· + ·) rfl (Finset.sum_congr (by with_reducible rfl) fun e _ => ?_)
  rw [Cert.LibRowOps.gather_rows (by decide) gather_S100000x128_S1600000x1_S1600000x128_1_0_n_n_0_1_1128_wf gather_S100000x128_S1600000x1_S1600000x128_1_0_n_n_0_1_1128 rfl (val_main_v31 (F := Ideal) x0 x1 x2 x3 x4) (sc x1) e k]
  exact hidden_eq x0 x1 x2 x3 x4 _ k

theorem dg2_apply (n : Fin 100000) (k : Fin 128) : val_main_v43 (F := Ideal) x1 (ix2 n k) = dg x1 n := by
  rw [val_main_v43_apply, i43, val_main_v42_apply, i42]

theorem b2_apply (n : Fin 100000) (j : Fin 64) : val_main_v49 (F := Ideal) x6 (ix2 n j) = x6 (ix1 j) := by
  rw [val_main_v49_apply, i49, val_main_v48_apply, i48]

/-- THE REFERENCE'S OUTPUT at node `n`, class `j`, is the specification's second layer, aggregating first. -/
theorem out_eq (n : Fin 100000) (j : Fin 64) :
    val_main_v50 (F := Ideal) x0 x1 x2 x3 x4 x5 x6 x7 (ix2 n j)
      = Cert.Sage.outRef (sc x1) (dc x1) (dg x1)
          (Cert.Sage.hidden (sc x1) (dc x1) (dg x1) x0 x2 x4 (fun k => x3 (ix1 k))) x5 x7 (fun j => x6 (ix1 j)) n j := by
  rw [val_main_v50_apply, val_main_v47_apply, val_main_v45_apply, val_main_v46_apply, b2_apply]
  have h1 : ∀ k : Fin 128, val_main_v44 (F := Ideal) x0 x1 x2 x3 x4 (lidx_main_v45 (ix2 n j) k) * x5 (ridx_main_v45 (ix2 n j) k)
      = ((Cert.Sage.z + ∑ e ∈ Cert.Sage.edgesInto (dc x1) n,
            Cert.Sage.hidden (sc x1) (dc x1) (dg x1) x0 x2 x4 (fun k => x3 (ix1 k)) (Cert.Sage.rowOf (sc x1) e) k) * dg x1 n)
          * x5 (ix2 k j) :=
    fun k => by rw [l45, r45, val_main_v44_apply, agg2_apply, dg2_apply]; rfl
  have h2 : ∀ k : Fin 128, val_main_v31 (F := Ideal) x0 x1 x2 x3 x4 (lidx_main_v46 (ix2 n j) k) * x7 (ridx_main_v46 (ix2 n j) k)
      = Cert.Sage.hidden (sc x1) (dc x1) (dg x1) x0 x2 x4 (fun k => x3 (ix1 k)) n k * x7 (ix2 k j) :=
    fun k => by rw [l46, r46, hidden_eq]
  rw [Finset.sum_congr rfl (fun k _ => h1 k), Finset.sum_congr rfl (fun k _ => h2 k)]
  rfl

end Cert.ReferenceIdeal.Formula
-- ==== Proof.lean ====
/-
  A two-layer mean-aggregation graph convolution on 100000 nodes and 1600000 edges: the kernel against its reference,
  over the extended reals.

  Both programs compute the in-degree by a scatter-add of ones, its inverse `d = 1 / max (deg, 1)`, the first
  aggregate `Σ_{e → n} x[src e]` by a row gather and a row scatter-add, and the first layer
  `h = max ((agg · d) W1_l + x W1_r + b1, 0)` — the kernel in a grid of 25 blocks of 4000 nodes, the reference on
  whole arrays: the same function, node by node. They differ in the second layer. The reference aggregates the
  hidden rows, scales by `d` and then multiplies by `W2_l`; the kernel multiplies every hidden row by `W2_l` inside
  the first region, aggregates the 64-wide projected rows on the host and scales inside the second region. The two
  orders agree because every hidden entry is non-negative (it is a maximum with zero) and `d` is non-negative and
  never `⊤` (the maximum under the quotient is at least one): a sum of non-negative extended reals distributes over
  any factor, and such a `d` distributes over any sum. The precondition is never opened: the equality holds for every
  edge list and all extended-real features and weights.

  The frames of the kernel and of its idealization are the generated frame theorems; the reference's frame is its
  generated run with the result dropped; the ideal pass rewrote nothing, so `preserves` is `True`.
-/
import proofs.«136426_j72911364817007_2_alg».proof.Defs
import proofs.«136426_j72911364817007_2_alg».proof.Proof.Gen.Kernel
import proofs.«136426_j72911364817007_2_alg».proof.Proof.Gen.Kernel.Skeleton
import proofs.«136426_j72911364817007_2_alg».proof.Proof.Gen.Kernel.Launch
import proofs.«136426_j72911364817007_2_alg».proof.Proof.Gen.Kernel.Points
import proofs.«136426_j72911364817007_2_alg».proof.Proof.Gen.Kernel.Frame
import proofs.«136426_j72911364817007_2_alg».proof.Proof.Gen.KernelIdeal
import proofs.«136426_j72911364817007_2_alg».proof.Proof.Gen.KernelIdeal.Skeleton
import proofs.«136426_j72911364817007_2_alg».proof.Proof.Gen.KernelIdeal.Launch
import proofs.«136426_j72911364817007_2_alg».proof.Proof.Gen.KernelIdeal.Points
import proofs.«136426_j72911364817007_2_alg».proof.Proof.Gen.KernelIdeal.Frame
import proofs.«136426_j72911364817007_2_alg».proof.Proof.Gen.ReferenceIdeal
import proofs.«136426_j72911364817007_2_alg».proof.Proof.Gen.Pre_finite_inputs
import proofs.«136426_j72911364817007_2_alg».proof.Proof.Gen.ReferenceIdeal.Run
import proofs.«136426_j72911364817007_2_alg».proof.Proof.Gen.ReferenceIdeal.Read
import proofs.«136426_j72911364817007_2_alg».proof.Proof.KernelRan
import proofs.«136426_j72911364817007_2_alg».proof.Proof.KernelBetween
import proofs.«136426_j72911364817007_2_alg».proof.Proof.KernelFormula
import proofs.«136426_j72911364817007_2_alg».proof.Proof.KernelDegree
import proofs.«136426_j72911364817007_2_alg».proof.Proof.RefFormula
import proofs.«136426_j72911364817007_2_alg».proof.Proof.Spec
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem

/-! ## The two sides' index columns and inverse degree are one -/

/-- The reference's source column is the kernel's. -/
theorem src_eq (ei : Cert.KernelIdeal.S2x1600000.Idx → BitVec 32) :
    Cert.ReferenceIdeal.Formula.sc ei = Cert.KernelIdeal.HostSide.srcCol ei := rfl
/-- The reference's destination column is the kernel's. -/
theorem dst_eq (ei : Cert.KernelIdeal.S2x1600000.Idx → BitVec 32) :
    Cert.ReferenceIdeal.Formula.dc ei = Cert.KernelIdeal.HostSide.dstCol ei := rfl
/-- The reference's inverse degree is the kernel's. -/
theorem deg_eq (ei : Cert.KernelIdeal.S2x1600000.Idx → BitVec 32) :
    Cert.ReferenceIdeal.Formula.dg ei = fun n => Cert.KernelIdeal.HostSide.invDeg ei (ix1 n) := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs run, and the kernel's result array is the reference's,
    node by node and class by class. -/
theorem algebraic : Cert.algebraic_KernelIdeal_ReferenceIdeal := by
  intro m ρ m' ρ' _ hagree
  refine ⟨fun c => Cert.KernelIdeal.Gen.W4 m ρ c (Proc.devRef .tc Cert.KernelIdeal.main_v36),
    Cert.KernelIdeal.Ran.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v50_eq, e0, e1, e2, e3, e4, e5, e6, e7]
  refine Eq.trans ?_ (Cert.KernelIdeal.HostSide.result m ρ c).symm
  funext i
  obtain ⟨n, j, rfl⟩ : ∃ (n : Fin 100000) (j : Fin 64), i = ix2 n j := ⟨i 0, i 1, eq_ix2 i⟩
  rw [Cert.ReferenceIdeal.Formula.out_eq, Cert.KernelIdeal.Formula.out_eq, src_eq, dst_eq, deg_eq]
  exact (Cert.Sage.outKer_eq_outRef _ _ _ _ (fun n k => Cert.Sage.hidden_nonneg _ _ _ _ _ _ _ n k)
    (fun n => (Cert.KernelIdeal.HostSide.invDeg_bounds _ n).1) (fun n => (Cert.KernelIdeal.HostSide.invDeg_bounds _ n).2) _ _ _ n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
